-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S16777216 : Shape := ⟨1, ![16777216]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : IVec S16777216 32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  main_v3
-- ==== Kernel.lean ====
abbrev S16777216x1 : Shape := ⟨2, ![16777216, 1]⟩
abbrev S16777216 : Shape := ⟨1, ![16777216]⟩
abbrev S131072x128 : Shape := ⟨2, ![131072, 128]⟩
abbrev S2x10x128 : Shape := ⟨3, ![2, 10, 128]⟩
abbrev S4096x128 : Shape := ⟨2, ![4096, 128]⟩
abbrev S1x10x128 : Shape := ⟨3, ![1, 10, 128]⟩
abbrev S128 : Shape := ⟨1, ![128]⟩
abbrev S1x128 : Shape := ⟨2, ![1, 128]⟩
abbrev S1x1x128 : Shape := ⟨3, ![1, 1, 128]⟩
abbrev S_ : Shape := ⟨0, ![]⟩
abbrev S10 : Shape := ⟨1, ![10]⟩

abbrev nBuf : Space → Nat
  | .hbm => 29
  | .vmem => 8
  | .smem => 0
  | _ => 0

abbrev bufTy : (tb : Table) → Fin (tcTables nBuf tb) → BufTy
  | .hbm, ⟨0, _⟩ => ⟨S16777216x1, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S2x10x128, .f32⟩
  | .hbm, ⟨5, _⟩ => ⟨S2x10x128, .f32⟩
  | .hbm, ⟨6, _⟩ => ⟨S_, .f32⟩
  | .hbm, ⟨7, _⟩ => ⟨S10, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S10, .f32⟩
  | .hbm, ⟨14, _⟩ => ⟨S_, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x10x128, .f32⟩
  | .local _ .vmem, ⟨5, _⟩ => ⟨S1x10x128, .f32⟩
  | .local _ .vmem, ⟨6, _⟩ => ⟨S1x10x128, .f32⟩
  | .local _ .vmem, ⟨7, _⟩ => ⟨S1x10x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216x1_S131072x128 : S16777216x1.ShapeCasts S131072x128
  shapeCasts_S16777216_S131072x128 : S16777216.ShapeCasts S131072x128
  inb_S1x10x128_S1x10x128_0_0_0 : ∀ a, (![0, 0, 0] : Fin 3 → Nat) a + S1x10x128.size a ≤ S1x10x128.size a
  h_S1x10x128 : 0 < S1x10x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S128 : S4096x128.Reduces [0] S128
  shapeCasts_S128_S1x128 : S128.ShapeCasts S1x128
  inb_S1x10x128_S1x1x128_0_0_0 : ∀ a, (![0, 0, 0] : Fin 3 → Nat) a + S1x1x128.size a ≤ S1x10x128.size a
  h_S1x1x128 : 0 < S1x1x128.numel
  shapeCasts_S1x1x128_S1x128 : S1x1x128.ShapeCasts S1x128
  shapeCasts_S1x128_S1x1x128 : S1x128.ShapeCasts S1x1x128
  inb_S1x10x128_S1x1x128_0_1_0 : ∀ a, (![0, 1, 0] : Fin 3 → Nat) a + S1x1x128.size a ≤ S1x10x128.size a
  inb_S1x10x128_S1x1x128_0_2_0 : ∀ a, (![0, 2, 0] : Fin 3 → Nat) a + S1x1x128.size a ≤ S1x10x128.size a
  inb_S1x10x128_S1x1x128_0_3_0 : ∀ a, (![0, 3, 0] : Fin 3 → Nat) a + S1x1x128.size a ≤ S1x10x128.size a
  inb_S1x10x128_S1x1x128_0_4_0 : ∀ a, (![0, 4, 0] : Fin 3 → Nat) a + S1x1x128.size a ≤ S1x10x128.size a
  inb_S1x10x128_S1x1x128_0_5_0 : ∀ a, (![0, 5, 0] : Fin 3 → Nat) a + S1x1x128.size a ≤ S1x10x128.size a
  inb_S1x10x128_S1x1x128_0_6_0 : ∀ a, (![0, 6, 0] : Fin 3 → Nat) a + S1x1x128.size a ≤ S1x10x128.size a
  inb_S1x10x128_S1x1x128_0_7_0 : ∀ a, (![0, 7, 0] : Fin 3 → Nat) a + S1x1x128.size a ≤ S1x10x128.size a
  inb_S1x10x128_S1x1x128_0_8_0 : ∀ a, (![0, 8, 0] : Fin 3 → Nat) a + S1x1x128.size a ≤ S1x10x128.size a
  inb_S1x10x128_S1x1x128_0_9_0 : ∀ a, (![0, 9, 0] : Fin 3 → Nat) a + S1x1x128.size a ≤ S1x10x128.size a
  reducesTo_S2x10x128_S10_d0_2 : S2x10x128.ReducesTo [0, 2] S10
  h_S_ : 0 < S_.numel
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x128.size a ≤ S2x10x128.size a
  hwx0_2 : ∀ i : grid0.Coords, EltTy.bits .f32 = 32 ∨ (Rect.block (s := S2x10x128) S1x10x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x128.size a ≤ S2x10x128.size a
  hwx0_3 : ∀ i : grid0.Coords, EltTy.bits .f32 = 32 ∨ (Rect.block (s := S2x10x128) S1x10x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x10x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x10x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216x1 : Shape := ⟨2, ![16777216, 1]⟩
abbrev S16777216 : Shape := ⟨1, ![16777216]⟩
abbrev S_ : Shape := ⟨0, ![]⟩
abbrev S10 : Shape := ⟨1, ![10]⟩

abbrev nBuf : Space → Nat
  | .hbm => 83
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216, .i32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i32⟩
  | .hbm, ⟨27, _⟩ => ⟨S_, .f32⟩
  | .hbm, ⟨28, _⟩ => ⟨S10, .f32⟩
  | .hbm, ⟨29, _⟩ => ⟨S_, .i32⟩
  | .hbm, ⟨30, _⟩ => ⟨S16777216, .i32⟩
  | .hbm, ⟨31, _⟩ => ⟨S16777216, .i1⟩
  | .hbm, ⟨32, _⟩ => ⟨S_, .i32⟩
  | .hbm, ⟨33, _⟩ => ⟨S16777216, .i32⟩
  | .hbm, ⟨34, _⟩ => ⟨S16777216, .i32⟩
  | .hbm, ⟨35, _⟩ => ⟨S16777216, .i32⟩
  | .hbm, ⟨36, _⟩ => ⟨S16777216x1, .i32⟩
  | .hbm, ⟨37, _⟩ => ⟨S_, .f32⟩
  | .hbm, ⟨38, _⟩ => ⟨S16777216, .f32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S10, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S10, .f32⟩
  | .hbm, ⟨54, _⟩ => ⟨S10, .f32⟩
  | .hbm, ⟨55, _⟩ => ⟨S_, .i32⟩
  | .hbm, ⟨56, _⟩ => ⟨S16777216, .i32⟩
  | .hbm, ⟨57, _⟩ => ⟨S16777216, .i1⟩
  | .hbm, ⟨58, _⟩ => ⟨S_, .i32⟩
  | .hbm, ⟨59, _⟩ => ⟨S16777216, .i32⟩
  | .hbm, ⟨60, _⟩ => ⟨S16777216, .i32⟩
  | .hbm, ⟨61, _⟩ => ⟨S16777216, .i32⟩
  | .hbm, ⟨62, _⟩ => ⟨S16777216x1, .i32⟩
  | .hbm, ⟨63, _⟩ => ⟨S16777216, .f32⟩
  | .hbm, ⟨64, _⟩ => ⟨S_, .f32⟩
  | .hbm, ⟨65, _⟩ => ⟨S16777216, .f32⟩
  | .hbm, ⟨66, _⟩ => ⟨S16777216, .f32⟩
  | .hbm, ⟨67, _⟩ => ⟨S16777216, .f32⟩
  | .hbm, ⟨68, _⟩ => ⟨S16777216, .i1⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S16777216, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S16777216, .f32⟩
  | .hbm, ⟨78, _⟩ => ⟨S16777216, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  shapeCasts_S16777216x1_S16777216 : S16777216x1.ShapeCasts S16777216
  bcast_S_S16777216 : S_.BroadcastsInDim S16777216 (![] : Fin 0 → Fin S16777216.rank)
  bcast_S_S10 : S_.BroadcastsInDim S10 (![] : Fin 0 → Fin S10.rank)
  bcast_S16777216_S16777216x1_0 : S16777216.BroadcastsInDim S16777216x1 (![0] : Fin 1 → Fin S16777216x1.rank)
  natLt_1_32 : 1 < 32
  reducesTo_S10_S_d0 : S10.ReducesTo [0] S_
  h_S_ : 0 < S_.numel
  reducesTo_S16777216_S_d0 : S16777216.ReducesTo [0] S_
  scatter_S10_S16777216x1_S16777216_n_0_0_1_wf : ScatterDims.WF S10 S16777216x1 S16777216 [] [0] [0] 1
  gather_S10_S16777216x1_S16777216_n_0_n_n_0_1_1_wf : GatherDims.WF S10 S16777216x1 S16777216 [] [0] [] [0] [] 1 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S16777216x1_S16777216_n_0_n_n_0_1_1 : GatherDims S10 S16777216x1 S16777216 where
  offsetDims := []
  collapsedSliceDims := [0]
  operandBatchingDims := []
  startIndicesBatchingDims := []
  startIndexMap := [0]
  indexVectorDim := 1
  sliceSizes := ![1]
  wf := gather_S10_S16777216x1_S16777216_n_0_n_n_0_1_1_wf

class Facts : Prop extends Facts₀ where

variable [Facts]
-- ==== Proof.Spec.lean ====
/-
  The loss both programs compute, as one function of the samples.

  A sample is a logit x (an extended real) and a label word t.  Its gradient norm is |σ(x) - t|, its bin the
  floor of ten-minus-a-bit times that, clipped into 0..9, and its cross-entropy log(1 + e^x) - x t in the
  stable form max(0, x) + log1p(e^{-|x|}).  With n_b the number of samples in bin b and m the number of
  nonempty bins, the weight of bin b is β_b = N / max(n_b m, ε), and the loss is the weighted mean
  (Σ_a ce_a β_{bin a}) / N.  The kernel computes it bin by bin, (Σ_b β_b Σ_{a in bin b} ce_a) / N.
-/
import Idealize.ShloMosaic.PureOps.Ideal
import Idealize.ShloMosaic.Lib.ValueIdx

noncomputable section

open scoped BigOperators

namespace Cert.Ghm

open Idealize.ShloMosaic

/-- The number of samples. -/
abbrev NS : Nat := 16777216

/-! ## The four float constants, as the words both programs carry -/

def zeroW : EReal := Ideal.ofBits .f32 0x00000000#32
def oneW : EReal := Ideal.ofBits .f32 0x3F800000#32
def binsW : EReal := Ideal.ofBits .f32 0x411FFF97#32
def epsW : EReal := Ideal.ofBits .f32 0x358637BD#32
def nW : EReal := Ideal.ofBits .f32 0x4B800000#32

/-! ## One sample -/

/-- The label as a number. -/
def lab (t : BitVec 32) : EReal := ((t.toInt : ℝ) : EReal)

/-- The gradient norm |σ(x) - t|. -/
def gnorm (x : EReal) (t : BitVec 32) : EReal :=
  max (Ideal.logistic x - lab t) (-(Ideal.logistic x - lab t))

/-- The bin of a sample: floor(g · 9.9999) as a signed word, clipped into 0..9. -/
def binOf (x : EReal) (t : BitVec 32) : BitVec 32 :=
  IntOp.minsi 9#32 (IntOp.maxsi 0#32 (Ideal.fptosi 32 (Ideal.liftRound Int.floor (gnorm x t * binsW))))

/-- The cross-entropy of a sample, in the numerically stable form of logaddexp(0, x) - x t (the first
    branch is the one taken when 0 - x is not a number, which never happens here). -/
def ceOf (x : EReal) (t : BitVec 32) : EReal :=
  (Scalar.select (Ideal.cmp .one (zeroW - x) (zeroW - x)) (zeroW + x)
    (max zeroW x + Ideal.log1p (Ideal.exp (zeroW - max (zeroW - x) (-(zeroW - x)))))) - x * lab t

/-- The indicator, as a number, that the bin word k is the bin b. -/
def ind (b k : BitVec 32) : EReal := (((IntOp.cmpi .eq k b).setWidth 32 : BitVec 32).toInt : ℝ)

/-! ## All samples -/

section All

variable (xs : Fin NS → EReal) (ts : Fin NS → BitVec 32)

/-- The bin word of sample a. -/
def bin (a : Fin NS) : BitVec 32 := binOf (xs a) (ts a)

/-- The cross-entropy of sample a. -/
def ce (a : Fin NS) : EReal := ceOf (xs a) (ts a)

/-- The number of samples in bin b. -/
def cnt (b : Fin 10) : EReal := ∑ a : Fin NS, ind (BitVec.ofNat 32 b.val) (bin xs ts a)

/-- The cross-entropy summed over the samples of bin b. -/
def ces (b : Fin 10) : EReal := ∑ a : Fin NS, ind (BitVec.ofNat 32 b.val) (bin xs ts a) * ce xs ts a

/-- The number of nonempty bins. -/
def nonempty : EReal := ∑ b : Fin 10, if 0 < cnt xs ts b then (1 : EReal) else 0

/-- The weight of bin b. -/
def beta (b : Fin 10) : EReal := Ideal.div nW (max (cnt xs ts b * nonempty xs ts) epsW)

/-- The bin of sample a as a position among the ten weights: its word read signed and clamped into 0..9. -/
def binPos (a : Fin NS) : Fin 10 := ⟨min (bin xs ts a).toInt.toNat 9, by omega⟩

/-- The loss, bin by bin. -/
def lossByBin : EReal := Ideal.div (∑ b : Fin 10, beta xs ts b * ces xs ts b) nW

/-- The loss, sample by sample. -/
def lossBySample : EReal := Ideal.div (∑ a : Fin NS, ce xs ts a * beta xs ts (binPos xs ts a)) nW

end All

/-! ## The position of a sample in the kernel's tiling -/

/-- Sample (c, s, r, l) of the tiling — core half c, tile s of the half, row r of the tile, lane l — is the
    flat sample ((16 c + s) 4096 + r) 128 + l. -/
def flat (c : Fin 2) (s : Fin 16) (r : Fin 4096) (l : Fin 128) : Fin NS :=
  ⟨((c.val * 16 + s.val) * 4096 + r.val) * 128 + l.val, by
    have := c.isLt; have := s.isLt; have := r.isLt; have := l.isLt; show _ < 16777216; omega⟩

end Cert.Ghm

end
-- ==== Proof.KRows.lean ====
/-
  One row of an accumulator block, read at a lane.

  The kernel keeps, per core, a [1, 10, 128] block per output: row b holds, lane by lane, the running sum for
  bin b.  Each grid point adds to row b the column sums of a [4096, 128] tile of per-sample terms.  Here: what
  the new row is at lane l — the old row there plus the sum over the tile's 4096 rows of the term at (r, l) —
  and the two per-sample terms themselves, the bin and the cross-entropy, as functions of a sample.
-/
import proofs.«181964_j90546500534448_2_alg».proof.KernelIdeal
import proofs.«181964_j90546500534448_2_alg».proof.Proof.Gen.KernelIdeal.Skeleton
import proofs.«181964_j90546500534448_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Ghm.K

open Idealize.ShloMosaic Idealize.ShloMosaic.ValueIdx Cert.KernelIdeal Cert.KernelIdeal.Gen

/-- A lane of a [1, 1, 128] row. -/
theorem exists_lane (x : S1x1x128.Idx) : ∃ l : Fin 128, x = ix3 (0 : Fin 1) (0 : Fin 1) l :=
  ⟨x 2, funext fun d => match d with
    | ⟨0, _⟩ => Fin.ext (by have h : (x 0).val < 1 := (x 0).isLt; show (x 0).val = 0; omega)
    | ⟨1, _⟩ => Fin.ext (by have h : (x 1).val < 1 := (x 1).isLt; show (x 1).val = 0; omega)
    | ⟨2, _⟩ => rfl⟩

/-- Lane l of the row rectangle at row b of the block is the block's entry (0, b, l). -/
theorem row_idx (b : Nat) (hb : b < 10) (inb : ∀ a, (![0, b, 0] : Fin 3 → Nat) a + (![1, 1, 128] : Fin 3 → Nat) a ≤ S1x10x128.size a)
    (l : Fin 128) :
    (Rect.unit (s := S1x10x128) ![0, b, 0] ![1, 1, 128] inb).idx (ix3 (0 : Fin 1) (0 : Fin 1) l)
      = ix3 (0 : Fin 1) (⟨b, hb⟩ : Fin 10) l := by
  funext a
  refine Fin.ext ?_
  match a with
  | ⟨0, _⟩ => show 0 + 1 * 0 = 0; rfl
  | ⟨1, _⟩ => show b + 1 * 0 = b; omega
  | ⟨2, _⟩ => show 0 + 1 * l.val = l.val; omega

/-- The new row at lane l: the old row there plus the partial row there (the two re-layings between [1, 128]
    and [1, 1, 128] move nothing). -/
theorem acc_row_apply (prev : S1x1x128.Idx → EReal) (part : S1x128.Idx → EReal)
    (h1 : S1x1x128.ShapeCasts S1x128) (h2 : S1x128.ShapeCasts S1x1x128) (l : Fin 128) :
    shapeCast S1x1x128 (addf (F := Ideal) (φ := .f32) (shapeCast S1x128 prev h1) part) h2 (ix3 (0 : Fin 1) (0 : Fin 1) l)
      = prev (ix3 (0 : Fin 1) (0 : Fin 1) l) + part (ix2 (0 : Fin 1) l) := by
  rw [shapeCast_ab_1ab_apply, addf_apply, shapeCast_1ab_ab_apply]

/-- The column sums of a [4096, 128] tile, laid as a [1, 128] row, at lane l: the sum over the tile's rows. -/
theorem col_sum_apply (src : FVec Ideal S4096x128 .f32) (h : S4096x128.Reduces [0] S128) (hφ : FKind.Formats .f32)
    (hacc : (0x00000000#32 : BitVec 32) = 0x00000000#32) (h' : S128.ShapeCasts S1x128) (l : Fin 128) :
    shapeCast S1x128 (multiReduction .add [0] S128 src 0x00000000#32 h hφ hacc) h' (ix2 (0 : Fin 1) l)
      = ∑ r : Fin 4096, src (ix2 r l) := by
  rw [shapeCast_a_1a_apply]
  refine (Ideal.multiReduction_add_single src 0x00000000#32 h hφ hacc (ix1 l)).trans ?_
  refine Finset.sum_congr rfl fun r _ => congrArg src ?_
  funext a
  refine Fin.ext ?_
  match a with
  | ⟨0, _⟩ => rfl
  | ⟨1, _⟩ => rfl

/-! ## The per-sample terms of a tile -/

/-- The tile's bin words: sample by sample, the bin of the sample. -/
theorem tile_bin (x0 : Vec Ideal S4096x128 .f32) (x1 : Vec Ideal S4096x128 .i32) :
    k0_pay6 (F := Ideal) x0 x1 = fun i => binOf (x0 i) (x1 i) := by
  unfold k0_pay6 k0_pay4 k0_pay5
  simp only [shapeCast_self]
  rfl

/-- The tile's cross-entropies: sample by sample, the cross-entropy of the sample. -/
theorem tile_ce (x0 : Vec Ideal S4096x128 .f32) (x1 : Vec Ideal S4096x128 .i32) :
    k0_pay7 (F := Ideal) x0 x1 = fun i => ceOf (x0 i) (x1 i) := by
  unfold k0_pay7 k0_pay4 k0_pay5
  simp only [shapeCast_self]
  rfl

/-! ## The ten rows of the count block and of the cross-entropy block

Row b of the count block gains, at lane l, the number of the tile's samples in column l whose bin is b; row b of
the cross-entropy block gains the sum of their cross-entropies.  One statement per row: the rows are spelt by
different terms of the printed body. -/

theorem cnt_row0 (x0 : Vec Ideal S4096x128 .f32) (x1 : Vec Ideal S4096x128 .i32) (prev : Vec Ideal S1x1x128 .f32) (l : Fin 128) :
    k0_pay11 (F := Ideal) (k0_pay9 x0 x1) prev (ix3 (0 : Fin 1) (0 : Fin 1) l)
      = prev (ix3 (0 : Fin 1) (0 : Fin 1) l) + ∑ r : Fin 4096, ind 0#32 ((k0_pay6 (F := Ideal) x0 x1) (ix2 r l)) := by
  unfold k0_pay11 k0_pay9 k0_pay8
  dsimp only
  rw [acc_row_apply, col_sum_apply]
  rfl

theorem cnt_row1 (bins : IVec S4096x128 32) (prev : Vec Ideal S1x1x128 .f32) (l : Fin 128) :
    k0_pay14 (F := Ideal) bins prev (ix3 (0 : Fin 1) (0 : Fin 1) l)
      = prev (ix3 (0 : Fin 1) (0 : Fin 1) l) + ∑ r : Fin 4096, ind 1#32 (bins (ix2 r l)) := by
  unfold k0_pay14 k0_pay13
  dsimp only
  rw [acc_row_apply, col_sum_apply]
  rfl

theorem cnt_row2 (bins : IVec S4096x128 32) (prev : Vec Ideal S1x1x128 .f32) (l : Fin 128) :
    k0_pay18 (F := Ideal) bins prev (ix3 (0 : Fin 1) (0 : Fin 1) l)
      = prev (ix3 (0 : Fin 1) (0 : Fin 1) l) + ∑ r : Fin 4096, ind 2#32 (bins (ix2 r l)) := by
  unfold k0_pay18 k0_pay17
  dsimp only
  rw [acc_row_apply, col_sum_apply]
  rfl

theorem cnt_row3 (bins : IVec S4096x128 32) (prev : Vec Ideal S1x1x128 .f32) (l : Fin 128) :
    k0_pay23 (F := Ideal) (k0_pay22 bins prev) (ix3 (0 : Fin 1) (0 : Fin 1) l)
      = prev (ix3 (0 : Fin 1) (0 : Fin 1) l) + ∑ r : Fin 4096, ind 3#32 (bins (ix2 r l)) := by
  unfold k0_pay23 k0_pay22 k0_pay20
  dsimp only
  rw [acc_row_apply, col_sum_apply]
  rfl

theorem cnt_row4 (bins : IVec S4096x128 32) (prev : Vec Ideal S1x1x128 .f32) (l : Fin 128) :
    k0_pay26 (F := Ideal) bins prev (ix3 (0 : Fin 1) (0 : Fin 1) l)
      = prev (ix3 (0 : Fin 1) (0 : Fin 1) l) + ∑ r : Fin 4096, ind 4#32 (bins (ix2 r l)) := by
  unfold k0_pay26 k0_pay25
  dsimp only
  rw [acc_row_apply, col_sum_apply]
  rfl

theorem cnt_row5 (bins : IVec S4096x128 32) (prev : Vec Ideal S1x1x128 .f32) (l : Fin 128) :
    k0_pay30 (F := Ideal) (k0_pay28 bins) prev (ix3 (0 : Fin 1) (0 : Fin 1) l)
      = prev (ix3 (0 : Fin 1) (0 : Fin 1) l) + ∑ r : Fin 4096, ind 5#32 (bins (ix2 r l)) := by
  unfold k0_pay30 k0_pay29 k0_pay28
  dsimp only
  rw [acc_row_apply, col_sum_apply]
  rfl

theorem cnt_row6 (bins : IVec S4096x128 32) (prev : Vec Ideal S1x1x128 .f32) (l : Fin 128) :
    k0_pay34 (F := Ideal) bins prev (ix3 (0 : Fin 1) (0 : Fin 1) l)
      = prev (ix3 (0 : Fin 1) (0 : Fin 1) l) + ∑ r : Fin 4096, ind 6#32 (bins (ix2 r l)) := by
  unfold k0_pay34 k0_pay32
  dsimp only
  rw [acc_row_apply, col_sum_apply]
  rfl

theorem cnt_row7 (bins : IVec S4096x128 32) (prev : Vec Ideal S1x1x128 .f32) (l : Fin 128) :
    k0_pay37 (F := Ideal) bins prev (ix3 (0 : Fin 1) (0 : Fin 1) l)
      = prev (ix3 (0 : Fin 1) (0 : Fin 1) l) + ∑ r : Fin 4096, ind 7#32 (bins (ix2 r l)) := by
  unfold k0_pay37 k0_pay36
  dsimp only
  rw [acc_row_apply, col_sum_apply]
  rfl

theorem cnt_row8 (bins : IVec S4096x128 32) (prev : Vec Ideal S1x1x128 .f32) (l : Fin 128) :
    k0_pay42 (F := Ideal) (k0_pay40 bins) prev (ix3 (0 : Fin 1) (0 : Fin 1) l)
      = prev (ix3 (0 : Fin 1) (0 : Fin 1) l) + ∑ r : Fin 4096, ind 8#32 (bins (ix2 r l)) := by
  unfold k0_pay42 k0_pay40 k0_pay39
  dsimp only
  rw [acc_row_apply, col_sum_apply]
  rfl

theorem cnt_row9 (bins : IVec S4096x128 32) (prev : Vec Ideal S1x1x128 .f32) (l : Fin 128) :
    k0_pay45 (F := Ideal) bins prev (ix3 (0 : Fin 1) (0 : Fin 1) l)
      = prev (ix3 (0 : Fin 1) (0 : Fin 1) l) + ∑ r : Fin 4096, ind 9#32 (bins (ix2 r l)) := by
  unfold k0_pay45 k0_pay44
  dsimp only
  rw [acc_row_apply, col_sum_apply]
  rfl

theorem ce_row0 (x0 : Vec Ideal S4096x128 .f32) (x1 : Vec Ideal S4096x128 .i32) (prev : Vec Ideal S1x1x128 .f32) (l : Fin 128) :
    k0_pay12 (F := Ideal) (k0_pay10 x0 x1) prev (ix3 (0 : Fin 1) (0 : Fin 1) l)
      = prev (ix3 (0 : Fin 1) (0 : Fin 1) l) + ∑ r : Fin 4096, ind 0#32 ((k0_pay6 (F := Ideal) x0 x1) (ix2 r l)) * (k0_pay7 (F := Ideal) x0 x1) (ix2 r l) := by
  unfold k0_pay12 k0_pay10 k0_pay8
  dsimp only
  rw [acc_row_apply, col_sum_apply]
  rfl

theorem ce_row1 (bins : IVec S4096x128 32) (ces : FVec Ideal S4096x128 .f32) (prev : Vec Ideal S1x1x128 .f32) (l : Fin 128) :
    k0_pay16 (F := Ideal) (k0_pay15 bins ces prev) (ix3 (0 : Fin 1) (0 : Fin 1) l)
      = prev (ix3 (0 : Fin 1) (0 : Fin 1) l) + ∑ r : Fin 4096, ind 1#32 (bins (ix2 r l)) * ces (ix2 r l) := by
  unfold k0_pay16 k0_pay15 k0_pay13
  dsimp only
  rw [acc_row_apply, col_sum_apply]
  rfl

theorem ce_row2 (bins : IVec S4096x128 32) (ces : FVec Ideal S4096x128 .f32) (prev : Vec Ideal S1x1x128 .f32) (l : Fin 128) :
    k0_pay19 (F := Ideal) bins ces prev (ix3 (0 : Fin 1) (0 : Fin 1) l)
      = prev (ix3 (0 : Fin 1) (0 : Fin 1) l) + ∑ r : Fin 4096, ind 2#32 (bins (ix2 r l)) * ces (ix2 r l) := by
  unfold k0_pay19 k0_pay17
  dsimp only
  rw [acc_row_apply, col_sum_apply]
  rfl

theorem ce_row3 (bins : IVec S4096x128 32) (ces : FVec Ideal S4096x128 .f32) (prev : Vec Ideal S1x1x128 .f32) (l : Fin 128) :
    k0_pay24 (F := Ideal) (k0_pay21 bins ces) prev (ix3 (0 : Fin 1) (0 : Fin 1) l)
      = prev (ix3 (0 : Fin 1) (0 : Fin 1) l) + ∑ r : Fin 4096, ind 3#32 (bins (ix2 r l)) * ces (ix2 r l) := by
  unfold k0_pay24 k0_pay21 k0_pay20
  dsimp only
  rw [acc_row_apply, col_sum_apply]
  rfl

theorem ce_row4 (bins : IVec S4096x128 32) (ces : FVec Ideal S4096x128 .f32) (prev : Vec Ideal S1x1x128 .f32) (l : Fin 128) :
    k0_pay27 (F := Ideal) bins ces prev (ix3 (0 : Fin 1) (0 : Fin 1) l)
      = prev (ix3 (0 : Fin 1) (0 : Fin 1) l) + ∑ r : Fin 4096, ind 4#32 (bins (ix2 r l)) * ces (ix2 r l) := by
  unfold k0_pay27 k0_pay25
  dsimp only
  rw [acc_row_apply, col_sum_apply]
  rfl

theorem ce_row5 (bins : IVec S4096x128 32) (ces : FVec Ideal S4096x128 .f32) (prev : Vec Ideal S1x1x128 .f32) (l : Fin 128) :
    k0_pay31 (F := Ideal) ces (k0_pay28 bins) prev (ix3 (0 : Fin 1) (0 : Fin 1) l)
      = prev (ix3 (0 : Fin 1) (0 : Fin 1) l) + ∑ r : Fin 4096, ind 5#32 (bins (ix2 r l)) * ces (ix2 r l) := by
  unfold k0_pay31 k0_pay29 k0_pay28
  dsimp only
  rw [acc_row_apply, col_sum_apply]
  rfl

theorem ce_row6 (bins : IVec S4096x128 32) (ces : FVec Ideal S4096x128 .f32) (prev : Vec Ideal S1x1x128 .f32) (l : Fin 128) :
    k0_pay35 (F := Ideal) (k0_pay33 bins ces) prev (ix3 (0 : Fin 1) (0 : Fin 1) l)
      = prev (ix3 (0 : Fin 1) (0 : Fin 1) l) + ∑ r : Fin 4096, ind 6#32 (bins (ix2 r l)) * ces (ix2 r l) := by
  unfold k0_pay35 k0_pay33 k0_pay32
  dsimp only
  rw [acc_row_apply, col_sum_apply]
  rfl

theorem ce_row7 (bins : IVec S4096x128 32) (ces : FVec Ideal S4096x128 .f32) (prev : Vec Ideal S1x1x128 .f32) (l : Fin 128) :
    k0_pay38 (F := Ideal) bins ces prev (ix3 (0 : Fin 1) (0 : Fin 1) l)
      = prev (ix3 (0 : Fin 1) (0 : Fin 1) l) + ∑ r : Fin 4096, ind 7#32 (bins (ix2 r l)) * ces (ix2 r l) := by
  unfold k0_pay38 k0_pay36
  dsimp only
  rw [acc_row_apply, col_sum_apply]
  rfl

theorem ce_row8 (bins : IVec S4096x128 32) (ces : FVec Ideal S4096x128 .f32) (prev : Vec Ideal S1x1x128 .f32) (l : Fin 128) :
    k0_pay43 (F := Ideal) (k0_pay41 bins ces) prev (ix3 (0 : Fin 1) (0 : Fin 1) l)
      = prev (ix3 (0 : Fin 1) (0 : Fin 1) l) + ∑ r : Fin 4096, ind 8#32 (bins (ix2 r l)) * ces (ix2 r l) := by
  unfold k0_pay43 k0_pay41 k0_pay39
  dsimp only
  rw [acc_row_apply, col_sum_apply]
  rfl

theorem ce_row9 (bins : IVec S4096x128 32) (ces : FVec Ideal S4096x128 .f32) (prev : Vec Ideal S1x1x128 .f32) (l : Fin 128) :
    k0_pay1 (F := Ideal) (k0_pay46 bins ces prev) (ix3 (0 : Fin 1) (0 : Fin 1) l)
      = prev (ix3 (0 : Fin 1) (0 : Fin 1) l) + ∑ r : Fin 4096, ind 9#32 (bins (ix2 r l)) * ces (ix2 r l) := by
  unfold k0_pay1 k0_pay46 k0_pay44
  dsimp only
  rw [acc_row_apply, col_sum_apply]
  rfl

end Cert.Ghm.K

end
-- ==== Proof.KPieces.lean ====
/-
  What one grid point leaves in the two accumulator blocks.

  The body adds to row b of the count block the tile's per-lane number of samples of bin b, and to row b of the
  cross-entropy block their per-lane cross-entropy sum; at a core's first tile it clears both blocks first.  So a
  grid point turns blocks (P, Q) into (P + counts of the tile, Q + cross-entropy sums of the tile), with
  P = Q = 0 at a first tile.
-/
import proofs.«181964_j90546500534448_2_alg».proof.Proof.KRows
import proofs.«181964_j90546500534448_2_alg».proof.Proof.Gen.KernelIdeal.Frame
import Idealize.ShloMosaic.Lib.Pipeline.Value
import Idealize.ShloMosaic.Lib.Tactic

set_option maxRecDepth 16384

noncomputable section

open scoped BigOperators

namespace Cert.Ghm.K

open Idealize.ShloMosaic Idealize.ShloMosaic.TcCoe Idealize.ShloMosaic.ValueIdx Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- Row b's rectangle lies inside the block. -/
theorem inbRow (b : Nat) (hb : b < 10) : ∀ a, (![0, b, 0] : Fin 3 → Nat) a + (![1, 1, 128] : Fin 3 → Nat) a ≤ S1x10x128.size a := by
  intro a
  match a with
  | ⟨0, _⟩ => show 0 + 1 ≤ 1; omega
  | ⟨1, _⟩ => show b + 1 ≤ 10; omega
  | ⟨2, _⟩ => show 0 + 128 ≤ 128; omega

/-- The tile's number of samples of bin b in column l. -/
def tileCnt (bins : IVec S4096x128 32) (b : Fin 10) (l : Fin 128) : EReal :=
  ∑ r : Fin 4096, ind (BitVec.ofNat 32 b.val) (bins (ix2 r l))

/-- The tile's cross-entropy sum over the samples of bin b in column l. -/
def tileCe (bins : IVec S4096x128 32) (ces : S4096x128.Idx → EReal) (b : Fin 10) (l : Fin 128) : EReal :=
  ∑ r : Fin 4096, ind (BitVec.ofNat 32 b.val) (bins (ix2 r l)) * ces (ix2 r l)

/-- A block with a per-(row, lane) term added. -/
def accBlock (xo : S1x10x128.Idx → EReal) (add : Fin 10 → Fin 128 → EReal) : S1x10x128.Idx → EReal :=
  fun y => xo y + add ⟨(y 1).val, (y 1).isLt⟩ ⟨(y 2).val, (y 2).isLt⟩

theorem accBlock_apply (xo : S1x10x128.Idx → EReal) (add : Fin 10 → Fin 128 → EReal) (b : Fin 10) (l : Fin 128) :
    accBlock xo add (ix3 (0 : Fin 1) b l) = xo (ix3 (0 : Fin 1) b l) + add b l := rfl

/-- The piece the body stores into row b agrees with the accumulated block on that row, when the row it loaded
    is the old block's row b and what it stores is that row plus the row's term. -/
theorem piece_of_row (xo : S1x10x128.Idx → EReal) (add : Fin 10 → Fin 128 → EReal) (b : Nat) (hb : b < 10)
    (inb : ∀ a, (![0, b, 0] : Fin 3 → Nat) a + (![1, 1, 128] : Fin 3 → Nat) a ≤ S1x10x128.size a)
    {f prevRow : S1x1x128.Idx → EReal}
    (hf : ∀ l : Fin 128, f (ix3 (0 : Fin 1) (0 : Fin 1) l) = prevRow (ix3 (0 : Fin 1) (0 : Fin 1) l) + add ⟨b, hb⟩ l)
    (hprev : ∀ l : Fin 128, prevRow (ix3 (0 : Fin 1) (0 : Fin 1) l) = xo (ix3 (0 : Fin 1) (⟨b, hb⟩ : Fin 10) l)) :
    ∀ x : S1x1x128.Idx, f x = accBlock xo add ((Rect.unit (s := S1x10x128) ![0, b, 0] ![1, 1, 128] inb).emb x) := by
  intro x
  obtain ⟨l, rfl⟩ := exists_lane x
  rw [hf, hprev]
  show _ = accBlock xo add ((Rect.unit (s := S1x10x128) ![0, b, 0] ![1, 1, 128] inb).idx (ix3 (0 : Fin 1) (0 : Fin 1) l))
  rw [row_idx b hb inb l]
  rfl

/-! ## A later tile of a core: the blocks grow -/

theorem out_B_cnt (c : Dev nD) (i : grid0.Coords) (a2 : Memref sig .tc .vmem S4096x128 .f32) (h2 : a2.IsWhole)
    (a3 : Memref sig .tc .vmem S4096x128 .i32) (h3 : a3.IsWhole) (a4 : Memref sig .tc .vmem S1x10x128 .f32) (h4 : a4.IsWhole)
    (a5 : Memref sig .tc .vmem S1x10x128 .f32) (h5 : a5.IsWhole) (hc : ¬cond0_0 i)
    (x0 : Vec Ideal S4096x128 .f32) (x1 : Vec Ideal S4096x128 .i32) (xo2 xo3 : Vec Ideal S1x10x128 .f32) :
    out0_B_2 (F := Ideal) c i a2 h2 a3 h3 a4 h4 a5 h5 hc x0 x1 xo2 xo3 = accBlock xo2 (tileCnt (k0_pay6 (F := Ideal) x0 x1)) := by
  unfold out0_B_2
  rw [View.read_writes_eq_canon _ _ _ (cover0_B_2 c i a2 h2 a3 h3 a4 h4 a5 h5 hc x0 x1 xo2 xo3)]
  funext y
  refine View.canon_apply_of_pieces (accBlock xo2 (tileCnt (k0_pay6 (F := Ideal) x0 x1))) _ ?_ y (cover0_B_2 c i a2 h2 a3 h3 a4 h4 a5 h5 hc x0 x1 xo2 xo3 y)
  unfold kernelRun0_B
  dsimp only
  sl_unfold_words
  simp only [View.readAt_eq_ld, h2.read_unread, h3.read_unread, h4.read_unread, View.ld_unit_zero (S := S4096x128) hz2]
  intro p hp
  simp only [List.mem_cons, List.mem_nil_iff, or_false] at hp
  rcases hp with rfl | rfl | rfl | rfl | rfl | rfl | rfl | rfl | rfl | rfl
  · exact piece_of_row xo2 _ 9 (by decide) (inbRow 9 (by decide)) (fun l => cnt_row9 (k0_pay6 (F := Ideal) x0 x1) _ l) (fun l => congrArg xo2 (row_idx 9 (by decide) (inbRow 9 (by decide)) l))
  · exact piece_of_row xo2 _ 8 (by decide) (inbRow 8 (by decide)) (fun l => cnt_row8 (k0_pay6 (F := Ideal) x0 x1) _ l) (fun l => congrArg xo2 (row_idx 8 (by decide) (inbRow 8 (by decide)) l))
  · exact piece_of_row xo2 _ 7 (by decide) (inbRow 7 (by decide)) (fun l => cnt_row7 (k0_pay6 (F := Ideal) x0 x1) _ l) (fun l => congrArg xo2 (row_idx 7 (by decide) (inbRow 7 (by decide)) l))
  · exact piece_of_row xo2 _ 6 (by decide) (inbRow 6 (by decide)) (fun l => cnt_row6 (k0_pay6 (F := Ideal) x0 x1) _ l) (fun l => congrArg xo2 (row_idx 6 (by decide) (inbRow 6 (by decide)) l))
  · exact piece_of_row xo2 _ 5 (by decide) (inbRow 5 (by decide)) (fun l => cnt_row5 (k0_pay6 (F := Ideal) x0 x1) _ l) (fun l => congrArg xo2 (row_idx 5 (by decide) (inbRow 5 (by decide)) l))
  · exact piece_of_row xo2 _ 4 (by decide) (inbRow 4 (by decide)) (fun l => cnt_row4 (k0_pay6 (F := Ideal) x0 x1) _ l) (fun l => congrArg xo2 (row_idx 4 (by decide) (inbRow 4 (by decide)) l))
  · exact piece_of_row xo2 _ 3 (by decide) (inbRow 3 (by decide)) (fun l => cnt_row3 (k0_pay6 (F := Ideal) x0 x1) _ l) (fun l => congrArg xo2 (row_idx 3 (by decide) (inbRow 3 (by decide)) l))
  · exact piece_of_row xo2 _ 2 (by decide) (inbRow 2 (by decide)) (fun l => cnt_row2 (k0_pay6 (F := Ideal) x0 x1) _ l) (fun l => congrArg xo2 (row_idx 2 (by decide) (inbRow 2 (by decide)) l))
  · exact piece_of_row xo2 _ 1 (by decide) (inbRow 1 (by decide)) (fun l => cnt_row1 (k0_pay6 (F := Ideal) x0 x1) _ l) (fun l => congrArg xo2 (row_idx 1 (by decide) (inbRow 1 (by decide)) l))
  · exact piece_of_row xo2 _ 0 (by decide) (inbRow 0 (by decide)) (fun l => cnt_row0 x0 x1 _ l) (fun l => congrArg xo2 (row_idx 0 (by decide) (inbRow 0 (by decide)) l))

theorem out_B_ce (c : Dev nD) (i : grid0.Coords) (a2 : Memref sig .tc .vmem S4096x128 .f32) (h2 : a2.IsWhole)
    (a3 : Memref sig .tc .vmem S4096x128 .i32) (h3 : a3.IsWhole) (a4 : Memref sig .tc .vmem S1x10x128 .f32) (h4 : a4.IsWhole)
    (a5 : Memref sig .tc .vmem S1x10x128 .f32) (h5 : a5.IsWhole) (hc : ¬cond0_0 i)
    (x0 : Vec Ideal S4096x128 .f32) (x1 : Vec Ideal S4096x128 .i32) (xo2 xo3 : Vec Ideal S1x10x128 .f32) :
    out0_B_3 (F := Ideal) c i a2 h2 a3 h3 a4 h4 a5 h5 hc x0 x1 xo2 xo3 = accBlock xo3 (tileCe (k0_pay6 (F := Ideal) x0 x1) (k0_pay7 (F := Ideal) x0 x1)) := by
  unfold out0_B_3
  rw [View.read_writes_eq_canon _ _ _ (cover0_B_3 c i a2 h2 a3 h3 a4 h4 a5 h5 hc x0 x1 xo2 xo3)]
  funext y
  refine View.canon_apply_of_pieces (accBlock xo3 (tileCe (k0_pay6 (F := Ideal) x0 x1) (k0_pay7 (F := Ideal) x0 x1))) _ ?_ y (cover0_B_3 c i a2 h2 a3 h3 a4 h4 a5 h5 hc x0 x1 xo2 xo3 y)
  unfold kernelRun0_B
  dsimp only
  sl_unfold_words
  simp only [View.readAt_eq_ld, h2.read_unread, h3.read_unread, h5.read_unread, View.ld_unit_zero (S := S4096x128) hz2]
  intro p hp
  simp only [List.mem_cons, List.mem_nil_iff, or_false] at hp
  rcases hp with rfl | rfl | rfl | rfl | rfl | rfl | rfl | rfl | rfl | rfl
  · exact piece_of_row xo3 _ 9 (by decide) (inbRow 9 (by decide)) (fun l => ce_row9 (k0_pay6 (F := Ideal) x0 x1) (k0_pay7 (F := Ideal) x0 x1) _ l) (fun l => congrArg xo3 (row_idx 9 (by decide) (inbRow 9 (by decide)) l))
  · exact piece_of_row xo3 _ 8 (by decide) (inbRow 8 (by decide)) (fun l => ce_row8 (k0_pay6 (F := Ideal) x0 x1) (k0_pay7 (F := Ideal) x0 x1) _ l) (fun l => congrArg xo3 (row_idx 8 (by decide) (inbRow 8 (by decide)) l))
  · exact piece_of_row xo3 _ 7 (by decide) (inbRow 7 (by decide)) (fun l => ce_row7 (k0_pay6 (F := Ideal) x0 x1) (k0_pay7 (F := Ideal) x0 x1) _ l) (fun l => congrArg xo3 (row_idx 7 (by decide) (inbRow 7 (by decide)) l))
  · exact piece_of_row xo3 _ 6 (by decide) (inbRow 6 (by decide)) (fun l => ce_row6 (k0_pay6 (F := Ideal) x0 x1) (k0_pay7 (F := Ideal) x0 x1) _ l) (fun l => congrArg xo3 (row_idx 6 (by decide) (inbRow 6 (by decide)) l))
  · exact piece_of_row xo3 _ 5 (by decide) (inbRow 5 (by decide)) (fun l => ce_row5 (k0_pay6 (F := Ideal) x0 x1) (k0_pay7 (F := Ideal) x0 x1) _ l) (fun l => congrArg xo3 (row_idx 5 (by decide) (inbRow 5 (by decide)) l))
  · exact piece_of_row xo3 _ 4 (by decide) (inbRow 4 (by decide)) (fun l => ce_row4 (k0_pay6 (F := Ideal) x0 x1) (k0_pay7 (F := Ideal) x0 x1) _ l) (fun l => congrArg xo3 (row_idx 4 (by decide) (inbRow 4 (by decide)) l))
  · exact piece_of_row xo3 _ 3 (by decide) (inbRow 3 (by decide)) (fun l => ce_row3 (k0_pay6 (F := Ideal) x0 x1) (k0_pay7 (F := Ideal) x0 x1) _ l) (fun l => congrArg xo3 (row_idx 3 (by decide) (inbRow 3 (by decide)) l))
  · exact piece_of_row xo3 _ 2 (by decide) (inbRow 2 (by decide)) (fun l => ce_row2 (k0_pay6 (F := Ideal) x0 x1) (k0_pay7 (F := Ideal) x0 x1) _ l) (fun l => congrArg xo3 (row_idx 2 (by decide) (inbRow 2 (by decide)) l))
  · exact piece_of_row xo3 _ 1 (by decide) (inbRow 1 (by decide)) (fun l => ce_row1 (k0_pay6 (F := Ideal) x0 x1) (k0_pay7 (F := Ideal) x0 x1) _ l) (fun l => congrArg xo3 (row_idx 1 (by decide) (inbRow 1 (by decide)) l))
  · exact piece_of_row xo3 _ 0 (by decide) (inbRow 0 (by decide)) (fun l => ce_row0 x0 x1 _ l) (fun l => congrArg xo3 (row_idx 0 (by decide) (inbRow 0 (by decide)) l))

end Cert.Ghm.K

end
-- ==== Proof.KPiecesA.lean ====
/-
  What a core's first grid point leaves in the two accumulator blocks: it clears them, then adds the tile's
  counts and cross-entropy sums row by row.  Each row's load reads the cleared block through the stores made to
  the other rows since.
-/
import proofs.«181964_j90546500534448_2_alg».proof.Proof.KPieces

set_option maxRecDepth 16384

noncomputable section

open scoped BigOperators

namespace Cert.Ghm.K

open Idealize.ShloMosaic Idealize.ShloMosaic.TcCoe Idealize.ShloMosaic.ValueIdx Idealize.SL.Sem
open Cert.KernelIdeal Cert.KernelIdeal.Gen

/-- Every entry of the block is an entry (0, b, l). -/
theorem exists_row_lane (y : S1x10x128.Idx) : ∃ (b : Fin 10) (l : Fin 128), y = ix3 (0 : Fin 1) b l :=
  ⟨y 1, y 2, funext fun d => match d with
    | ⟨0, _⟩ => Fin.ext (by have h : (y 0).val < 1 := (y 0).isLt; show (y 0).val = 0; omega)
    | ⟨1, _⟩ => rfl
    | ⟨2, _⟩ => rfl⟩

/-- Entry (0, b, l) lies under row b's rectangle, -/
theorem mem_row (b : Nat) (hb : b < 10) (inb : ∀ a, (![0, b, 0] : Fin 3 → Nat) a + (![1, 1, 128] : Fin 3 → Nat) a ≤ S1x10x128.size a)
    (l : Fin 128) : ix3 (0 : Fin 1) (⟨b, hb⟩ : Fin 10) l ∈ (Rect.unit (s := S1x10x128) ![0, b, 0] ![1, 1, 128] inb).set := by
  rw [Rect.mem_set_unit]
  intro a
  match a with
  | ⟨0, _⟩ => show 0 ≤ 0 ∧ 0 < 0 + 1; omega
  | ⟨1, _⟩ => show b ≤ b ∧ b < b + 1; omega
  | ⟨2, _⟩ => show 0 ≤ l.val ∧ l.val < 0 + 128; have := l.isLt; omega

/-- and under no other row's. -/
theorem not_mem_row (b b' : Nat) (hb : b < 10) (l : Fin 128)
    (inb' : ∀ a, (![0, b', 0] : Fin 3 → Nat) a + (![1, 1, 128] : Fin 3 → Nat) a ≤ S1x10x128.size a) (hne : b ≠ b') :
    ix3 (0 : Fin 1) (⟨b, hb⟩ : Fin 10) l ∉ (Rect.unit (s := S1x10x128) ![0, b', 0] ![1, 1, 128] inb').set := by
  rw [Rect.mem_set_unit]
  intro h
  have h1 : b' ≤ b ∧ b < b' + 1 := h 1
  omega

/-- So a store into another row does not change what entry (0, b, l) reads. -/
theorem canon_skip_row (b b' : Nat) (hb : b < 10) (l : Fin 128)
    (inb' : ∀ a, (![0, b', 0] : Fin 3 → Nat) a + (![1, 1, 128] : Fin 3 → Nat) a ≤ S1x10x128.size a)
    (w : (Rect.unit (s := S1x10x128) ![0, b', 0] ![1, 1, 128] inb').shape.Idx → Elt Ideal .f32)
    (L : List (View.Piece (Elt Ideal) S1x10x128 .f32)) (hne : b ≠ b') :
    View.canon ((⟨Rect.unit (s := S1x10x128) ![0, b', 0] ![1, 1, 128] inb', w⟩ : View.Piece (Elt Ideal) S1x10x128 .f32) :: L)
        (ix3 (0 : Fin 1) (⟨b, hb⟩ : Fin 10) l)
      = View.canon L (ix3 (0 : Fin 1) (⟨b, hb⟩ : Fin 10) l) :=
  View.canon_cons_of_not_mem _ _ (not_mem_row b b' hb l inb' hne)

/-- The contents a list of stores leaves agree with G at y when the last store does on its rectangle and, off
    it, the earlier stores do at y. -/
theorem canon_cons_agree (G : S1x10x128.Idx → EReal) (p : View.Piece (Elt Ideal) S1x10x128 .f32)
    (L : List (View.Piece (Elt Ideal) S1x10x128 .f32)) (y : S1x10x128.Idx)
    (hp : ∀ x : p.1.shape.Idx, p.2 x = G (p.1.emb x)) (hrest : y ∉ p.1.set → View.canon L y = G y) :
    View.canon (p :: L) y = G y := by
  obtain ⟨r, w⟩ := p
  by_cases hm : y ∈ r.set
  · obtain ⟨x, rfl⟩ := r.exists_idx_of_mem hm
    rw [show r.idx x = r.emb x from rfl, View.canon_cons_emb]
    exact hp x
  · rw [View.canon_cons_of_not_mem _ _ hm]
    exact hrest hm

/-! ## The first tile of a core: the blocks are cleared, then grow -/

theorem out_A_cnt (c : Dev nD) (i : grid0.Coords) (a2 : Memref sig .tc .vmem S4096x128 .f32) (h2 : a2.IsWhole)
    (a3 : Memref sig .tc .vmem S4096x128 .i32) (h3 : a3.IsWhole) (a4 : Memref sig .tc .vmem S1x10x128 .f32) (h4 : a4.IsWhole)
    (a5 : Memref sig .tc .vmem S1x10x128 .f32) (h5 : a5.IsWhole) (hc : cond0_0 i)
    (x0 : Vec Ideal S4096x128 .f32) (x1 : Vec Ideal S4096x128 .i32) :
    out0_A_2 (F := Ideal) c i a2 h2 a3 h3 a4 h4 a5 h5 hc x0 x1 = accBlock (k0_pay2 (F := Ideal)) (tileCnt (k0_pay6 (F := Ideal) x0 x1)) := by
  unfold out0_A_2
  rw [View.read_writes_eq_canon _ _ _ (cover0_A_2 c i a2 h2 a3 h3 a4 h4 a5 h5 hc x0 x1)]
  unfold kernelRun0_A
  dsimp only
  sl_unfold_words
  simp only [View.readAt_eq_ld, h2.read_unread, h3.read_unread, View.ld_unit_zero (S := S4096x128) hz2]
  funext y
  refine canon_cons_agree (accBlock (k0_pay2 (F := Ideal)) (tileCnt (k0_pay6 (F := Ideal) x0 x1))) _ _ y
    (piece_of_row (k0_pay2 (F := Ideal)) _ 9 (by decide) (inbRow 9 (by decide)) (fun l => cnt_row9 (k0_pay6 (F := Ideal) x0 x1) _ l)
    (fun l => by
      rw [View.readCov_eq_canon']
      show View.canon _ ((Rect.unit (s := S1x10x128) ![0, 9, 0] ![1, 1, 128] (inbRow 9 (by decide))).idx (ix3 (0 : Fin 1) (0 : Fin 1) l)) = _
      rw [row_idx 9 (by decide) (inbRow 9 (by decide)) l,
        canon_skip_row 9 8 (by decide) l (inbRow 8 (by decide)) _ _ (by decide),
        canon_skip_row 9 7 (by decide) l (inbRow 7 (by decide)) _ _ (by decide),
        canon_skip_row 9 6 (by decide) l (inbRow 6 (by decide)) _ _ (by decide),
        canon_skip_row 9 5 (by decide) l (inbRow 5 (by decide)) _ _ (by decide),
        canon_skip_row 9 4 (by decide) l (inbRow 4 (by decide)) _ _ (by decide),
        canon_skip_row 9 3 (by decide) l (inbRow 3 (by decide)) _ _ (by decide),
        canon_skip_row 9 2 (by decide) l (inbRow 2 (by decide)) _ _ (by decide),
        canon_skip_row 9 1 (by decide) l (inbRow 1 (by decide)) _ _ (by decide),
        canon_skip_row 9 0 (by decide) l (inbRow 0 (by decide)) _ _ (by decide),
        View.canon_unit_zero hz3])) fun n9 => ?_
  refine canon_cons_agree (accBlock (k0_pay2 (F := Ideal)) (tileCnt (k0_pay6 (F := Ideal) x0 x1))) _ _ y
    (piece_of_row (k0_pay2 (F := Ideal)) _ 8 (by decide) (inbRow 8 (by decide)) (fun l => cnt_row8 (k0_pay6 (F := Ideal) x0 x1) _ l)
    (fun l => by
      rw [View.readCov_eq_canon']
      show View.canon _ ((Rect.unit (s := S1x10x128) ![0, 8, 0] ![1, 1, 128] (inbRow 8 (by decide))).idx (ix3 (0 : Fin 1) (0 : Fin 1) l)) = _
      rw [row_idx 8 (by decide) (inbRow 8 (by decide)) l,
        canon_skip_row 8 7 (by decide) l (inbRow 7 (by decide)) _ _ (by decide),
        canon_skip_row 8 6 (by decide) l (inbRow 6 (by decide)) _ _ (by decide),
        canon_skip_row 8 5 (by decide) l (inbRow 5 (by decide)) _ _ (by decide),
        canon_skip_row 8 4 (by decide) l (inbRow 4 (by decide)) _ _ (by decide),
        canon_skip_row 8 3 (by decide) l (inbRow 3 (by decide)) _ _ (by decide),
        canon_skip_row 8 2 (by decide) l (inbRow 2 (by decide)) _ _ (by decide),
        canon_skip_row 8 1 (by decide) l (inbRow 1 (by decide)) _ _ (by decide),
        canon_skip_row 8 0 (by decide) l (inbRow 0 (by decide)) _ _ (by decide),
        View.canon_unit_zero hz3])) fun n8 => ?_
  refine canon_cons_agree (accBlock (k0_pay2 (F := Ideal)) (tileCnt (k0_pay6 (F := Ideal) x0 x1))) _ _ y
    (piece_of_row (k0_pay2 (F := Ideal)) _ 7 (by decide) (inbRow 7 (by decide)) (fun l => cnt_row7 (k0_pay6 (F := Ideal) x0 x1) _ l)
    (fun l => by
      rw [View.readCov_eq_canon']
      show View.canon _ ((Rect.unit (s := S1x10x128) ![0, 7, 0] ![1, 1, 128] (inbRow 7 (by decide))).idx (ix3 (0 : Fin 1) (0 : Fin 1) l)) = _
      rw [row_idx 7 (by decide) (inbRow 7 (by decide)) l,
        canon_skip_row 7 6 (by decide) l (inbRow 6 (by decide)) _ _ (by decide),
        canon_skip_row 7 5 (by decide) l (inbRow 5 (by decide)) _ _ (by decide),
        canon_skip_row 7 4 (by decide) l (inbRow 4 (by decide)) _ _ (by decide),
        canon_skip_row 7 3 (by decide) l (inbRow 3 (by decide)) _ _ (by decide),
        canon_skip_row 7 2 (by decide) l (inbRow 2 (by decide)) _ _ (by decide),
        canon_skip_row 7 1 (by decide) l (inbRow 1 (by decide)) _ _ (by decide),
        canon_skip_row 7 0 (by decide) l (inbRow 0 (by decide)) _ _ (by decide),
        View.canon_unit_zero hz3])) fun n7 => ?_
  refine canon_cons_agree (accBlock (k0_pay2 (F := Ideal)) (tileCnt (k0_pay6 (F := Ideal) x0 x1))) _ _ y
    (piece_of_row (k0_pay2 (F := Ideal)) _ 6 (by decide) (inbRow 6 (by decide)) (fun l => cnt_row6 (k0_pay6 (F := Ideal) x0 x1) _ l)
    (fun l => by
      rw [View.readCov_eq_canon']
      show View.canon _ ((Rect.unit (s := S1x10x128) ![0, 6, 0] ![1, 1, 128] (inbRow 6 (by decide))).idx (ix3 (0 : Fin 1) (0 : Fin 1) l)) = _
      rw [row_idx 6 (by decide) (inbRow 6 (by decide)) l,
        canon_skip_row 6 5 (by decide) l (inbRow 5 (by decide)) _ _ (by decide),
        canon_skip_row 6 4 (by decide) l (inbRow 4 (by decide)) _ _ (by decide),
        canon_skip_row 6 3 (by decide) l (inbRow 3 (by decide)) _ _ (by decide),
        canon_skip_row 6 2 (by decide) l (inbRow 2 (by decide)) _ _ (by decide),
        canon_skip_row 6 1 (by decide) l (inbRow 1 (by decide)) _ _ (by decide),
        canon_skip_row 6 0 (by decide) l (inbRow 0 (by decide)) _ _ (by decide),
        View.canon_unit_zero hz3])) fun n6 => ?_
  refine canon_cons_agree (accBlock (k0_pay2 (F := Ideal)) (tileCnt (k0_pay6 (F := Ideal) x0 x1))) _ _ y
    (piece_of_row (k0_pay2 (F := Ideal)) _ 5 (by decide) (inbRow 5 (by decide)) (fun l => cnt_row5 (k0_pay6 (F := Ideal) x0 x1) _ l)
    (fun l => by
      rw [View.readCov_eq_canon']
      show View.canon _ ((Rect.unit (s := S1x10x128) ![0, 5, 0] ![1, 1, 128] (inbRow 5 (by decide))).idx (ix3 (0 : Fin 1) (0 : Fin 1) l)) = _
      rw [row_idx 5 (by decide) (inbRow 5 (by decide)) l,
        canon_skip_row 5 4 (by decide) l (inbRow 4 (by decide)) _ _ (by decide),
        canon_skip_row 5 3 (by decide) l (inbRow 3 (by decide)) _ _ (by decide),
        canon_skip_row 5 2 (by decide) l (inbRow 2 (by decide)) _ _ (by decide),
        canon_skip_row 5 1 (by decide) l (inbRow 1 (by decide)) _ _ (by decide),
        canon_skip_row 5 0 (by decide) l (inbRow 0 (by decide)) _ _ (by decide),
        View.canon_unit_zero hz3])) fun n5 => ?_
  refine canon_cons_agree (accBlock (k0_pay2 (F := Ideal)) (tileCnt (k0_pay6 (F := Ideal) x0 x1))) _ _ y
    (piece_of_row (k0_pay2 (F := Ideal)) _ 4 (by decide) (inbRow 4 (by decide)) (fun l => cnt_row4 (k0_pay6 (F := Ideal) x0 x1) _ l)
    (fun l => by
      rw [View.readCov_eq_canon']
      show View.canon _ ((Rect.unit (s := S1x10x128) ![0, 4, 0] ![1, 1, 128] (inbRow 4 (by decide))).idx (ix3 (0 : Fin 1) (0 : Fin 1) l)) = _
      rw [row_idx 4 (by decide) (inbRow 4 (by decide)) l,
        canon_skip_row 4 3 (by decide) l (inbRow 3 (by decide)) _ _ (by decide),
        canon_skip_row 4 2 (by decide) l (inbRow 2 (by decide)) _ _ (by decide),
        canon_skip_row 4 1 (by decide) l (inbRow 1 (by decide)) _ _ (by decide),
        canon_skip_row 4 0 (by decide) l (inbRow 0 (by decide)) _ _ (by decide),
        View.canon_unit_zero hz3])) fun n4 => ?_
  refine canon_cons_agree (accBlock (k0_pay2 (F := Ideal)) (tileCnt (k0_pay6 (F := Ideal) x0 x1))) _ _ y
    (piece_of_row (k0_pay2 (F := Ideal)) _ 3 (by decide) (inbRow 3 (by decide)) (fun l => cnt_row3 (k0_pay6 (F := Ideal) x0 x1) _ l)
    (fun l => by
      rw [View.readCov_eq_canon']
      show View.canon _ ((Rect.unit (s := S1x10x128) ![0, 3, 0] ![1, 1, 128] (inbRow 3 (by decide))).idx (ix3 (0 : Fin 1) (0 : Fin 1) l)) = _
      rw [row_idx 3 (by decide) (inbRow 3 (by decide)) l,
        canon_skip_row 3 2 (by decide) l (inbRow 2 (by decide)) _ _ (by decide),
        canon_skip_row 3 1 (by decide) l (inbRow 1 (by decide)) _ _ (by decide),
        canon_skip_row 3 0 (by decide) l (inbRow 0 (by decide)) _ _ (by decide),
        View.canon_unit_zero hz3])) fun n3 => ?_
  refine canon_cons_agree (accBlock (k0_pay2 (F := Ideal)) (tileCnt (k0_pay6 (F := Ideal) x0 x1))) _ _ y
    (piece_of_row (k0_pay2 (F := Ideal)) _ 2 (by decide) (inbRow 2 (by decide)) (fun l => cnt_row2 (k0_pay6 (F := Ideal) x0 x1) _ l)
    (fun l => by
      rw [View.readCov_eq_canon']
      show View.canon _ ((Rect.unit (s := S1x10x128) ![0, 2, 0] ![1, 1, 128] (inbRow 2 (by decide))).idx (ix3 (0 : Fin 1) (0 : Fin 1) l)) = _
      rw [row_idx 2 (by decide) (inbRow 2 (by decide)) l,
        canon_skip_row 2 1 (by decide) l (inbRow 1 (by decide)) _ _ (by decide),
        canon_skip_row 2 0 (by decide) l (inbRow 0 (by decide)) _ _ (by decide),
        View.canon_unit_zero hz3])) fun n2 => ?_
  refine canon_cons_agree (accBlock (k0_pay2 (F := Ideal)) (tileCnt (k0_pay6 (F := Ideal) x0 x1))) _ _ y
    (piece_of_row (k0_pay2 (F := Ideal)) _ 1 (by decide) (inbRow 1 (by decide)) (fun l => cnt_row1 (k0_pay6 (F := Ideal) x0 x1) _ l)
    (fun l => by
      rw [View.readCov_eq_canon']
      show View.canon _ ((Rect.unit (s := S1x10x128) ![0, 1, 0] ![1, 1, 128] (inbRow 1 (by decide))).idx (ix3 (0 : Fin 1) (0 : Fin 1) l)) = _
      rw [row_idx 1 (by decide) (inbRow 1 (by decide)) l,
        canon_skip_row 1 0 (by decide) l (inbRow 0 (by decide)) _ _ (by decide),
        View.canon_unit_zero hz3])) fun n1 => ?_
  refine canon_cons_agree (accBlock (k0_pay2 (F := Ideal)) (tileCnt (k0_pay6 (F := Ideal) x0 x1))) _ _ y
    (piece_of_row (k0_pay2 (F := Ideal)) _ 0 (by decide) (inbRow 0 (by decide)) (fun l => cnt_row0 x0 x1 _ l)
    (fun l => by
      rw [View.readCov_eq_canon']
      show View.canon _ ((Rect.unit (s := S1x10x128) ![0, 0, 0] ![1, 1, 128] (inbRow 0 (by decide))).idx (ix3 (0 : Fin 1) (0 : Fin 1) l)) = _
      rw [row_idx 0 (by decide) (inbRow 0 (by decide)) l,
        View.canon_unit_zero hz3])) fun n0 => ?_
  exfalso
  obtain ⟨b, l, rfl⟩ := exists_row_lane y
  rcases b with ⟨b, hb⟩
  interval_cases b
  · exact n0 (mem_row 0 (by decide) (inbRow 0 (by decide)) l)
  · exact n1 (mem_row 1 (by decide) (inbRow 1 (by decide)) l)
  · exact n2 (mem_row 2 (by decide) (inbRow 2 (by decide)) l)
  · exact n3 (mem_row 3 (by decide) (inbRow 3 (by decide)) l)
  · exact n4 (mem_row 4 (by decide) (inbRow 4 (by decide)) l)
  · exact n5 (mem_row 5 (by decide) (inbRow 5 (by decide)) l)
  · exact n6 (mem_row 6 (by decide) (inbRow 6 (by decide)) l)
  · exact n7 (mem_row 7 (by decide) (inbRow 7 (by decide)) l)
  · exact n8 (mem_row 8 (by decide) (inbRow 8 (by decide)) l)
  · exact n9 (mem_row 9 (by decide) (inbRow 9 (by decide)) l)

theorem out_A_ce (c : Dev nD) (i : grid0.Coords) (a2 : Memref sig .tc .vmem S4096x128 .f32) (h2 : a2.IsWhole)
    (a3 : Memref sig .tc .vmem S4096x128 .i32) (h3 : a3.IsWhole) (a4 : Memref sig .tc .vmem S1x10x128 .f32) (h4 : a4.IsWhole)
    (a5 : Memref sig .tc .vmem S1x10x128 .f32) (h5 : a5.IsWhole) (hc : cond0_0 i)
    (x0 : Vec Ideal S4096x128 .f32) (x1 : Vec Ideal S4096x128 .i32) :
    out0_A_3 (F := Ideal) c i a2 h2 a3 h3 a4 h4 a5 h5 hc x0 x1 = accBlock (k0_pay3 (F := Ideal)) (tileCe (k0_pay6 (F := Ideal) x0 x1) (k0_pay7 (F := Ideal) x0 x1)) := by
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h2.read_unread, h3.read_unread, View.ld_unit_zero (S := S4096x128) hz2]
  funext y
  refine canon_cons_agree (accBlock (k0_pay3 (F := Ideal)) (tileCe (k0_pay6 (F := Ideal) x0 x1) (k0_pay7 (F := Ideal) x0 x1))) _ _ y
    (piece_of_row (k0_pay3 (F := Ideal)) _ 9 (by decide) (inbRow 9 (by decide)) (fun l => ce_row9 (k0_pay6 (F := Ideal) x0 x1) (k0_pay7 (F := Ideal) x0 x1) _ l)
    (fun l => by
      rw [View.readCov_eq_canon']
      show View.canon _ ((Rect.unit (s := S1x10x128) ![0, 9, 0] ![1, 1, 128] (inbRow 9 (by decide))).idx (ix3 (0 : Fin 1) (0 : Fin 1) l)) = _
      rw [row_idx 9 (by decide) (inbRow 9 (by decide)) l,
        canon_skip_row 9 8 (by decide) l (inbRow 8 (by decide)) _ _ (by decide),
        canon_skip_row 9 7 (by decide) l (inbRow 7 (by decide)) _ _ (by decide),
        canon_skip_row 9 6 (by decide) l (inbRow 6 (by decide)) _ _ (by decide),
        canon_skip_row 9 5 (by decide) l (inbRow 5 (by decide)) _ _ (by decide),
        canon_skip_row 9 4 (by decide) l (inbRow 4 (by decide)) _ _ (by decide),
        canon_skip_row 9 3 (by decide) l (inbRow 3 (by decide)) _ _ (by decide),
        canon_skip_row 9 2 (by decide) l (inbRow 2 (by decide)) _ _ (by decide),
        canon_skip_row 9 1 (by decide) l (inbRow 1 (by decide)) _ _ (by decide),
        canon_skip_row 9 0 (by decide) l (inbRow 0 (by decide)) _ _ (by decide),
        View.canon_unit_zero hz3])) fun n9 => ?_
  refine canon_cons_agree (accBlock (k0_pay3 (F := Ideal)) (tileCe (k0_pay6 (F := Ideal) x0 x1) (k0_pay7 (F := Ideal) x0 x1))) _ _ y
    (piece_of_row (k0_pay3 (F := Ideal)) _ 8 (by decide) (inbRow 8 (by decide)) (fun l => ce_row8 (k0_pay6 (F := Ideal) x0 x1) (k0_pay7 (F := Ideal) x0 x1) _ l)
    (fun l => by
      rw [View.readCov_eq_canon']
      show View.canon _ ((Rect.unit (s := S1x10x128) ![0, 8, 0] ![1, 1, 128] (inbRow 8 (by decide))).idx (ix3 (0 : Fin 1) (0 : Fin 1) l)) = _
      rw [row_idx 8 (by decide) (inbRow 8 (by decide)) l,
        canon_skip_row 8 7 (by decide) l (inbRow 7 (by decide)) _ _ (by decide),
        canon_skip_row 8 6 (by decide) l (inbRow 6 (by decide)) _ _ (by decide),
        canon_skip_row 8 5 (by decide) l (inbRow 5 (by decide)) _ _ (by decide),
        canon_skip_row 8 4 (by decide) l (inbRow 4 (by decide)) _ _ (by decide),
        canon_skip_row 8 3 (by decide) l (inbRow 3 (by decide)) _ _ (by decide),
        canon_skip_row 8 2 (by decide) l (inbRow 2 (by decide)) _ _ (by decide),
        canon_skip_row 8 1 (by decide) l (inbRow 1 (by decide)) _ _ (by decide),
        canon_skip_row 8 0 (by decide) l (inbRow 0 (by decide)) _ _ (by decide),
        View.canon_unit_zero hz3])) fun n8 => ?_
  refine canon_cons_agree (accBlock (k0_pay3 (F := Ideal)) (tileCe (k0_pay6 (F := Ideal) x0 x1) (k0_pay7 (F := Ideal) x0 x1))) _ _ y
    (piece_of_row (k0_pay3 (F := Ideal)) _ 7 (by decide) (inbRow 7 (by decide)) (fun l => ce_row7 (k0_pay6 (F := Ideal) x0 x1) (k0_pay7 (F := Ideal) x0 x1) _ l)
    (fun l => by
      rw [View.readCov_eq_canon']
      show View.canon _ ((Rect.unit (s := S1x10x128) ![0, 7, 0] ![1, 1, 128] (inbRow 7 (by decide))).idx (ix3 (0 : Fin 1) (0 : Fin 1) l)) = _
      rw [row_idx 7 (by decide) (inbRow 7 (by decide)) l,
        canon_skip_row 7 6 (by decide) l (inbRow 6 (by decide)) _ _ (by decide),
        canon_skip_row 7 5 (by decide) l (inbRow 5 (by decide)) _ _ (by decide),
        canon_skip_row 7 4 (by decide) l (inbRow 4 (by decide)) _ _ (by decide),
        canon_skip_row 7 3 (by decide) l (inbRow 3 (by decide)) _ _ (by decide),
        canon_skip_row 7 2 (by decide) l (inbRow 2 (by decide)) _ _ (by decide),
        canon_skip_row 7 1 (by decide) l (inbRow 1 (by decide)) _ _ (by decide),
        canon_skip_row 7 0 (by decide) l (inbRow 0 (by decide)) _ _ (by decide),
        View.canon_unit_zero hz3])) fun n7 => ?_
  refine canon_cons_agree (accBlock (k0_pay3 (F := Ideal)) (tileCe (k0_pay6 (F := Ideal) x0 x1) (k0_pay7 (F := Ideal) x0 x1))) _ _ y
    (piece_of_row (k0_pay3 (F := Ideal)) _ 6 (by decide) (inbRow 6 (by decide)) (fun l => ce_row6 (k0_pay6 (F := Ideal) x0 x1) (k0_pay7 (F := Ideal) x0 x1) _ l)
    (fun l => by
      rw [View.readCov_eq_canon']
      show View.canon _ ((Rect.unit (s := S1x10x128) ![0, 6, 0] ![1, 1, 128] (inbRow 6 (by decide))).idx (ix3 (0 : Fin 1) (0 : Fin 1) l)) = _
      rw [row_idx 6 (by decide) (inbRow 6 (by decide)) l,
        canon_skip_row 6 5 (by decide) l (inbRow 5 (by decide)) _ _ (by decide),
        canon_skip_row 6 4 (by decide) l (inbRow 4 (by decide)) _ _ (by decide),
        canon_skip_row 6 3 (by decide) l (inbRow 3 (by decide)) _ _ (by decide),
        canon_skip_row 6 2 (by decide) l (inbRow 2 (by decide)) _ _ (by decide),
        canon_skip_row 6 1 (by decide) l (inbRow 1 (by decide)) _ _ (by decide),
        canon_skip_row 6 0 (by decide) l (inbRow 0 (by decide)) _ _ (by decide),
        View.canon_unit_zero hz3])) fun n6 => ?_
  refine canon_cons_agree (accBlock (k0_pay3 (F := Ideal)) (tileCe (k0_pay6 (F := Ideal) x0 x1) (k0_pay7 (F := Ideal) x0 x1))) _ _ y
    (piece_of_row (k0_pay3 (F := Ideal)) _ 5 (by decide) (inbRow 5 (by decide)) (fun l => ce_row5 (k0_pay6 (F := Ideal) x0 x1) (k0_pay7 (F := Ideal) x0 x1) _ l)
    (fun l => by
      rw [View.readCov_eq_canon']
      show View.canon _ ((Rect.unit (s := S1x10x128) ![0, 5, 0] ![1, 1, 128] (inbRow 5 (by decide))).idx (ix3 (0 : Fin 1) (0 : Fin 1) l)) = _
      rw [row_idx 5 (by decide) (inbRow 5 (by decide)) l,
        canon_skip_row 5 4 (by decide) l (inbRow 4 (by decide)) _ _ (by decide),
        canon_skip_row 5 3 (by decide) l (inbRow 3 (by decide)) _ _ (by decide),
        canon_skip_row 5 2 (by decide) l (inbRow 2 (by decide)) _ _ (by decide),
        canon_skip_row 5 1 (by decide) l (inbRow 1 (by decide)) _ _ (by decide),
        canon_skip_row 5 0 (by decide) l (inbRow 0 (by decide)) _ _ (by decide),
        View.canon_unit_zero hz3])) fun n5 => ?_
  refine canon_cons_agree (accBlock (k0_pay3 (F := Ideal)) (tileCe (k0_pay6 (F := Ideal) x0 x1) (k0_pay7 (F := Ideal) x0 x1))) _ _ y
    (piece_of_row (k0_pay3 (F := Ideal)) _ 4 (by decide) (inbRow 4 (by decide)) (fun l => ce_row4 (k0_pay6 (F := Ideal) x0 x1) (k0_pay7 (F := Ideal) x0 x1) _ l)
    (fun l => by
      rw [View.readCov_eq_canon']
      show View.canon _ ((Rect.unit (s := S1x10x128) ![0, 4, 0] ![1, 1, 128] (inbRow 4 (by decide))).idx (ix3 (0 : Fin 1) (0 : Fin 1) l)) = _
      rw [row_idx 4 (by decide) (inbRow 4 (by decide)) l,
        canon_skip_row 4 3 (by decide) l (inbRow 3 (by decide)) _ _ (by decide),
        canon_skip_row 4 2 (by decide) l (inbRow 2 (by decide)) _ _ (by decide),
        canon_skip_row 4 1 (by decide) l (inbRow 1 (by decide)) _ _ (by decide),
        canon_skip_row 4 0 (by decide) l (inbRow 0 (by decide)) _ _ (by decide),
        View.canon_unit_zero hz3])) fun n4 => ?_
  refine canon_cons_agree (accBlock (k0_pay3 (F := Ideal)) (tileCe (k0_pay6 (F := Ideal) x0 x1) (k0_pay7 (F := Ideal) x0 x1))) _ _ y
    (piece_of_row (k0_pay3 (F := Ideal)) _ 3 (by decide) (inbRow 3 (by decide)) (fun l => ce_row3 (k0_pay6 (F := Ideal) x0 x1) (k0_pay7 (F := Ideal) x0 x1) _ l)
    (fun l => by
      rw [View.readCov_eq_canon']
      show View.canon _ ((Rect.unit (s := S1x10x128) ![0, 3, 0] ![1, 1, 128] (inbRow 3 (by decide))).idx (ix3 (0 : Fin 1) (0 : Fin 1) l)) = _
      rw [row_idx 3 (by decide) (inbRow 3 (by decide)) l,
        canon_skip_row 3 2 (by decide) l (inbRow 2 (by decide)) _ _ (by decide),
        canon_skip_row 3 1 (by decide) l (inbRow 1 (by decide)) _ _ (by decide),
        canon_skip_row 3 0 (by decide) l (inbRow 0 (by decide)) _ _ (by decide),
        View.canon_unit_zero hz3])) fun n3 => ?_
  refine canon_cons_agree (accBlock (k0_pay3 (F := Ideal)) (tileCe (k0_pay6 (F := Ideal) x0 x1) (k0_pay7 (F := Ideal) x0 x1))) _ _ y
    (piece_of_row (k0_pay3 (F := Ideal)) _ 2 (by decide) (inbRow 2 (by decide)) (fun l => ce_row2 (k0_pay6 (F := Ideal) x0 x1) (k0_pay7 (F := Ideal) x0 x1) _ l)
    (fun l => by
      rw [View.readCov_eq_canon']
      show View.canon _ ((Rect.unit (s := S1x10x128) ![0, 2, 0] ![1, 1, 128] (inbRow 2 (by decide))).idx (ix3 (0 : Fin 1) (0 : Fin 1) l)) = _
      rw [row_idx 2 (by decide) (inbRow 2 (by decide)) l,
        canon_skip_row 2 1 (by decide) l (inbRow 1 (by decide)) _ _ (by decide),
        canon_skip_row 2 0 (by decide) l (inbRow 0 (by decide)) _ _ (by decide),
        View.canon_unit_zero hz3])) fun n2 => ?_
  refine canon_cons_agree (accBlock (k0_pay3 (F := Ideal)) (tileCe (k0_pay6 (F := Ideal) x0 x1) (k0_pay7 (F := Ideal) x0 x1))) _ _ y
    (piece_of_row (k0_pay3 (F := Ideal)) _ 1 (by decide) (inbRow 1 (by decide)) (fun l => ce_row1 (k0_pay6 (F := Ideal) x0 x1) (k0_pay7 (F := Ideal) x0 x1) _ l)
    (fun l => by
      rw [View.readCov_eq_canon']
      show View.canon _ ((Rect.unit (s := S1x10x128) ![0, 1, 0] ![1, 1, 128] (inbRow 1 (by decide))).idx (ix3 (0 : Fin 1) (0 : Fin 1) l)) = _
      rw [row_idx 1 (by decide) (inbRow 1 (by decide)) l,
        canon_skip_row 1 0 (by decide) l (inbRow 0 (by decide)) _ _ (by decide),
        View.canon_unit_zero hz3])) fun n1 => ?_
  refine canon_cons_agree (accBlock (k0_pay3 (F := Ideal)) (tileCe (k0_pay6 (F := Ideal) x0 x1) (k0_pay7 (F := Ideal) x0 x1))) _ _ y
    (piece_of_row (k0_pay3 (F := Ideal)) _ 0 (by decide) (inbRow 0 (by decide)) (fun l => ce_row0 x0 x1 _ l)
    (fun l => by
      rw [View.readCov_eq_canon']
      show View.canon _ ((Rect.unit (s := S1x10x128) ![0, 0, 0] ![1, 1, 128] (inbRow 0 (by decide))).idx (ix3 (0 : Fin 1) (0 : Fin 1) l)) = _
      rw [row_idx 0 (by decide) (inbRow 0 (by decide)) l,
        View.canon_unit_zero hz3])) fun n0 => ?_
  exfalso
  obtain ⟨b, l, rfl⟩ := exists_row_lane y
  rcases b with ⟨b, hb⟩
  interval_cases b
  · exact n0 (mem_row 0 (by decide) (inbRow 0 (by decide)) l)
  · exact n1 (mem_row 1 (by decide) (inbRow 1 (by decide)) l)
  · exact n2 (mem_row 2 (by decide) (inbRow 2 (by decide)) l)
  · exact n3 (mem_row 3 (by decide) (inbRow 3 (by decide)) l)
  · exact n4 (mem_row 4 (by decide) (inbRow 4 (by decide)) l)
  · exact n5 (mem_row 5 (by decide) (inbRow 5 (by decide)) l)
  · exact n6 (mem_row 6 (by decide) (inbRow 6 (by decide)) l)
  · exact n7 (mem_row 7 (by decide) (inbRow 7 (by decide)) l)
  · exact n8 (mem_row 8 (by decide) (inbRow 8 (by decide)) l)
  · exact n9 (mem_row 9 (by decide) (inbRow 9 (by decide)) l)

end Cert.Ghm.K

end
-- ==== Proof.KInv.lean ====
/-
  The accumulator blocks after each grid point, and after a core's last point.

  The grid runs the 32 tiles in order, 16 per core.  After point n the count block holds, at (row b, lane l), the
  sum over the tiles of the same core up to n of the tile's number of samples of bin b in column l, and the
  cross-entropy block the like sum of cross-entropies: by induction on the point.  After a core's last point
  that is the sum over all 16 of its tiles.
-/
import proofs.«181964_j90546500534448_2_alg».proof.Proof.KPiecesA

set_option maxRecDepth 16384

noncomputable section

open scoped BigOperators

namespace Cert.Ghm.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The bin words of the tile of point t, -/
abbrev tb (c : Dev nD) (t : Fin cfg0.N) : IVec S4096x128 32 := k0_pay6 (F := Ideal) (iblk m c 0 t) (iblk m c 1 t)
/-- and its cross-entropies. -/
abbrev tce (c : Dev nD) (t : Fin cfg0.N) : FVec Ideal S4096x128 .f32 := k0_pay7 (F := Ideal) (iblk m c 0 t) (iblk m c 1 t)

/-- The two blocks after point n: cleared and filled with the tile's sums at a core's first point, grown by the
    tile's sums otherwise. -/
def blocksAt (c : Dev nD) : (n : ℕ) → n < cfg0.N → Vec Ideal S1x10x128 .f32 × Vec Ideal S1x10x128 .f32
  | 0, h => (accBlock (k0_pay2 (F := Ideal)) (tileCnt (tb m c ⟨0, h⟩)),
      accBlock (k0_pay3 (F := Ideal)) (tileCe (tb m c ⟨0, h⟩) (tce m c ⟨0, h⟩)))
  | n + 1, h =>
    if (n + 1) % 16 = 0 then
      (accBlock (k0_pay2 (F := Ideal)) (tileCnt (tb m c ⟨n + 1, h⟩)),
        accBlock (k0_pay3 (F := Ideal)) (tileCe (tb m c ⟨n + 1, h⟩) (tce m c ⟨n + 1, h⟩)))
    else
      (accBlock (blocksAt c n (Nat.lt_of_succ_lt h)).1 (tileCnt (tb m c ⟨n + 1, h⟩)),
        accBlock (blocksAt c n (Nat.lt_of_succ_lt h)).2 (tileCe (tb m c ⟨n + 1, h⟩) (tce m c ⟨n + 1, h⟩)))

theorem blocksAt_zero (c : Dev nD) (h : 0 < cfg0.N) :
    blocksAt m c 0 h = (accBlock (k0_pay2 (F := Ideal)) (tileCnt (tb m c ⟨0, h⟩)),
      accBlock (k0_pay3 (F := Ideal)) (tileCe (tb m c ⟨0, h⟩) (tce m c ⟨0, h⟩))) := rfl

theorem blocksAt_succ (c : Dev nD) (n : ℕ) (h : n + 1 < cfg0.N) :
    blocksAt m c (n + 1) h = if (n + 1) % 16 = 0 then
      (accBlock (k0_pay2 (F := Ideal)) (tileCnt (tb m c ⟨n + 1, h⟩)),
        accBlock (k0_pay3 (F := Ideal)) (tileCe (tb m c ⟨n + 1, h⟩) (tce m c ⟨n + 1, h⟩)))
    else
      (accBlock (blocksAt m c n (Nat.lt_of_succ_lt h)).1 (tileCnt (tb m c ⟨n + 1, h⟩)),
        accBlock (blocksAt m c n (Nat.lt_of_succ_lt h)).2 (tileCe (tb m c ⟨n + 1, h⟩) (tce m c ⟨n + 1, h⟩))) := rfl

set_option maxHeartbeats 1600000 in
/-- A core's first point. -/
theorem outsAt_first (c : Dev nD) (t : Fin cfg0.N) (h0 : t.val % 16 = 0) :
    outsAt0 m c t.val t.isLt = (accBlock (k0_pay2 (F := Ideal)) (tileCnt (tb m c t)),
      accBlock (k0_pay3 (F := Ideal)) (tileCe (tb m c t) (tce m c t))) :=
  by
  rw [outsAt0_A m c t h0]
  exact congrArg₂ Prod.mk
    (out_A_cnt c (grid0.coords t) (ms0_0 t) (hs0_0 t) (ms0_1 t) (hs0_1 t) (ms0_2 t) (hs0_2 t) (ms0_3 t) (hs0_3 t) ((hcond0_0 t).mpr h0) (iblk m c 0 t) (iblk m c 1 t))
    (out_A_ce c (grid0.coords t) (ms0_0 t) (hs0_0 t) (ms0_1 t) (hs0_1 t) (ms0_2 t) (hs0_2 t) (ms0_3 t) (hs0_3 t) ((hcond0_0 t).mpr h0) (iblk m c 0 t) (iblk m c 1 t))

set_option maxHeartbeats 1600000 in
/-- A later point of a core. -/
theorem outsAt_later (c : Dev nD) (t : Fin cfg0.N) (h0 : ¬t.val % 16 = 0) :
    outsAt0 m c t.val t.isLt
      = (accBlock (outsAt0 m c (t.val - 1) (Nat.lt_of_le_of_lt (Nat.sub_le _ _) t.isLt)).1 (tileCnt (tb m c t)),
        accBlock (outsAt0 m c (t.val - 1) (Nat.lt_of_le_of_lt (Nat.sub_le _ _) t.isLt)).2 (tileCe (tb m c t) (tce m c t))) :=
  by
  rw [outsAt0_B m c t h0]
  exact congrArg₂ Prod.mk
    (out_B_cnt c (grid0.coords t) (ms0_0 t) (hs0_0 t) (ms0_1 t) (hs0_1 t) (ms0_2 t) (hs0_2 t) (ms0_3 t) (hs0_3 t) (fun hh => h0 ((hcond0_0 t).mp hh)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (out_B_ce c (grid0.coords t) (ms0_0 t) (hs0_0 t) (ms0_1 t) (hs0_1 t) (ms0_2 t) (hs0_2 t) (ms0_3 t) (hs0_3 t) (fun hh => h0 ((hcond0_0 t).mp hh)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

/-- What the generated frame says the blocks hold after point n is that. -/
theorem outsAt_eq (c : Dev nD) (n : ℕ) : ∀ h : n < cfg0.N, outsAt0 m c n h = blocksAt m c n h := by
  induction n with
  | zero =>
    intro h
    rw [blocksAt_zero]
    exact outsAt_first m c ⟨0, h⟩ rfl
  | succ n ih =>
    intro h
    rw [blocksAt_succ]
    by_cases h0 : (n + 1) % 16 = 0
    · rw [if_pos h0]
      exact outsAt_first m c ⟨n + 1, h⟩ h0
    · rw [if_neg h0, ← ih (Nat.lt_of_succ_lt h)]
      exact outsAt_later m c ⟨n + 1, h⟩ h0

/-! ## The closed form -/

/-- Tile k's count term (zero past the grid). -/
def tcnt (c : Dev nD) (k : ℕ) (b : Fin 10) (l : Fin 128) : EReal :=
  if hk : k < cfg0.N then tileCnt (tb m c ⟨k, hk⟩) b l else 0
/-- Tile k's cross-entropy term (zero past the grid). -/
def tces (c : Dev nD) (k : ℕ) (b : Fin 10) (l : Fin 128) : EReal :=
  if hk : k < cfg0.N then tileCe (tb m c ⟨k, hk⟩) (tce m c ⟨k, hk⟩) b l else 0

theorem zero2_apply (y : S1x10x128.Idx) : k0_pay2 (F := Ideal) y = 0 := Ideal.ofBits_zero_f32
theorem zero3_apply (y : S1x10x128.Idx) : k0_pay3 (F := Ideal) y = 0 := Ideal.ofBits_zero_f32

/-- After point n both blocks hold the sums over the tiles of n's core up to n. -/
theorem blocksAt_closed (c : Dev nD) (b : Fin 10) (l : Fin 128) : ∀ (n : ℕ) (h : n < cfg0.N),
    (blocksAt m c n h).1 (ix3 (0 : Fin 1) b l) = ∑ j ∈ Finset.range (n % 16 + 1), tcnt m c (n - n % 16 + j) b l
    ∧ (blocksAt m c n h).2 (ix3 (0 : Fin 1) b l) = ∑ j ∈ Finset.range (n % 16 + 1), tces m c (n - n % 16 + j) b l
  | 0, h => by
    refine ⟨?_, ?_⟩
    · show accBlock _ _ (ix3 (0 : Fin 1) b l) = _
      rw [accBlock_apply, zero2_apply, zero_add, Finset.sum_range_one]
      show _ = tcnt m c 0 b l
      unfold tcnt; rw [dif_pos h]
    · show accBlock _ _ (ix3 (0 : Fin 1) b l) = _
      rw [accBlock_apply, zero3_apply, zero_add, Finset.sum_range_one]
      show _ = tces m c 0 b l
      unfold tces; rw [dif_pos h]
  | n + 1, h => by
    obtain ⟨ih1, ih2⟩ := blocksAt_closed c b l n (Nat.lt_of_succ_lt h)
    by_cases h0 : (n + 1) % 16 = 0
    · have hb : blocksAt m c (n + 1) h = (accBlock (k0_pay2 (F := Ideal)) (tileCnt (tb m c ⟨n + 1, h⟩)),
          accBlock (k0_pay3 (F := Ideal)) (tileCe (tb m c ⟨n + 1, h⟩) (tce m c ⟨n + 1, h⟩))) := by
        rw [blocksAt_succ, if_pos h0]
      rw [hb, h0]
      refine ⟨?_, ?_⟩
      · show accBlock _ _ (ix3 (0 : Fin 1) b l) = _
        rw [accBlock_apply, zero2_apply, zero_add, Finset.sum_range_one]
        show _ = tcnt m c (n + 1) b l
        unfold tcnt; rw [dif_pos h]
      · show accBlock _ _ (ix3 (0 : Fin 1) b l) = _
        rw [accBlock_apply, zero3_apply, zero_add, Finset.sum_range_one]
        show _ = tces m c (n + 1) b l
        unfold tces; rw [dif_pos h]
    · have hb : blocksAt m c (n + 1) h = (accBlock (blocksAt m c n (Nat.lt_of_succ_lt h)).1 (tileCnt (tb m c ⟨n + 1, h⟩)),
          accBlock (blocksAt m c n (Nat.lt_of_succ_lt h)).2 (tileCe (tb m c ⟨n + 1, h⟩) (tce m c ⟨n + 1, h⟩))) := by
        rw [blocksAt_succ, if_neg h0]
      have e1 : (n + 1) % 16 = n % 16 + 1 := by omega
      have e2 : n + 1 - (n % 16 + 1) = n - n % 16 := by omega
      have e3 : n - n % 16 + (n % 16 + 1) = n + 1 := by omega
      rw [hb, e1, e2]
      refine ⟨?_, ?_⟩
      · show accBlock _ _ (ix3 (0 : Fin 1) b l) = _
        have ht : tcnt m c (n + 1) b l = tileCnt (tb m c ⟨n + 1, h⟩) b l := by unfold tcnt; rw [dif_pos h]
        rw [accBlock_apply, ih1, Finset.sum_range_succ _ (n % 16 + 1), e3, ht]
      · show accBlock _ _ (ix3 (0 : Fin 1) b l) = _
        have ht : tces m c (n + 1) b l = tileCe (tb m c ⟨n + 1, h⟩) (tce m c ⟨n + 1, h⟩) b l := by unfold tces; rw [dif_pos h]
        rw [accBlock_apply, ih2, Finset.sum_range_succ _ (n % 16 + 1), e3, ht]

/-- After a core's last point: the sums over the core's 16 tiles. -/
theorem last_blocks (c : Dev nD) (c' : Fin 2) (h : 16 * c'.val + 15 < cfg0.N) (b : Fin 10) (l : Fin 128) :
    (outsAt0 m c (16 * c'.val + 15) h).1 (ix3 (0 : Fin 1) b l) = ∑ s : Fin 16, tcnt m c (16 * c'.val + s.val) b l
    ∧ (outsAt0 m c (16 * c'.val + 15) h).2 (ix3 (0 : Fin 1) b l) = ∑ s : Fin 16, tces m c (16 * c'.val + s.val) b l := by
  rw [outsAt_eq m c _ h]
  obtain ⟨e1, e2⟩ := blocksAt_closed m c b l (16 * c'.val + 15) h
  have m15 : (16 * c'.val + 15) % 16 = 15 := by omega
  have d15 : 16 * c'.val + 15 - 15 = 16 * c'.val := by omega
  rw [m15, d15] at e1 e2
  rw [e1, e2]
  exact ⟨Finset.sum_range (fun j => tcnt m c (16 * c'.val + j) b l), Finset.sum_range (fun j => tces m c (16 * c'.val + j) b l)⟩

end Cert.Ghm.K

end
-- ==== Proof.KBlocks.lean ====
/-
  A tile of the two argument arrays, read at an index.

  The kernel sees the logits and the labels as 131072 rows of 128 lanes and visits them in 32 tiles of 4096 rows:
  tile t holds rows 4096 t .. 4096 t + 4095.  Row r, lane l of tile t is therefore the flat sample
  (4096 t + r) 128 + l, and with t = 16 c + s that is the sample the tiling calls (c, s, r, l).
-/
import proofs.«181964_j90546500534448_2_alg».proof.Proof.Gen.KernelIdeal.Frame
import proofs.«181964_j90546500534448_2_alg».proof.Proof.Spec
import Idealize.ShloMosaic.Lib.Pipeline.Value
import Idealize.ShloMosaic.Lib.StableHlo.Run
import Idealize.ShloMosaic.Lib.Tactic

noncomputable section

namespace Cert.Ghm.K

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The flat sample at row r, lane l of tile t. -/
def tileFlat (t : Fin cfg0.N) (r : Fin 4096) (l : Fin 128) : Fin NS :=
  ⟨(t.val * 4096 + r.val) * 128 + l.val, by
    have hN : t.val < 32 := lt_of_lt_of_eq t.isLt (show cfg0.N = 32 from N_0)
    have := r.isLt; have := l.isLt; show _ < 16777216; omega⟩

/-- Tile 16 c + s, row r, lane l is the sample (c, s, r, l) of the tiling. -/
theorem tileFlat_eq (c' : Fin 2) (s : Fin 16) (h : 16 * c'.val + s.val < cfg0.N) (r : Fin 4096) (l : Fin 128) :
    tileFlat ⟨16 * c'.val + s.val, h⟩ r l = flat c' s r l := by
  apply Fin.ext
  show ((16 * c'.val + s.val) * 4096 + r.val) * 128 + l.val = ((c'.val * 16 + s.val) * 4096 + r.val) * 128 + l.val
  omega

/-- The logits as the region finds them: the flat column reshaped to rows of 128 lanes. -/
theorem V_logits : (V m c main_v0 : S131072x128.Idx → EReal)
    = shapeCast S131072x128 (m ((c.tc : Thread nD τ).loc main_arg0)) shapeCasts_S16777216x1_S131072x128 := by
  show StableHlo.after hostOps0 (fun b => m (c, b)) (Proc.devRef .tc main_v0) = _
  after_results
  rfl

/-- The labels as the region finds them: the flat vector reshaped to rows of 128 lanes. -/
theorem V_labels : (V m c main_v1 : S131072x128.Idx → BitVec 32)
    = shapeCast S131072x128 (m ((c.tc : Thread nD τ).loc main_arg1)) shapeCasts_S16777216_S131072x128 := by
  show StableHlo.after hostOps0 (fun b => m (c, b)) (Proc.devRef .tc main_v1) = _
  after_results
  rfl

/-- The block of rows each input window holds at point t is block t, at lane block 0. -/
theorem tile_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r, lane l of the tile of logits at point t is the logit of the flat sample (4096 t + r) 128 + l. -/
theorem tile_x (t : Fin cfg0.N) (r : Fin 4096) (l : Fin 128) :
    (iblk m c 0 t : S4096x128.Idx → EReal) (ix2 r l)
      = m ((c.tc : Thread nD τ).loc main_arg0) (ix2 (tileFlat t r l) (0 : Fin 1)) := by
  obtain ⟨e0, e1, -, -⟩ := tile_index t
  unfold iblk
  rw [View.read_apply]
  show (V m c main_v0 : S131072x128.Idx → EReal) (((cfg0.win 0).blk t).view.emb (ix2 r l)) = _
  rw [V_logits]
  refine shapeCast_apply _ _ _ _ ?_
  show ((⟨2, ![16777216, 1]⟩ : Shape).rowMajor (ix2 (tileFlat t r l) (0 : Fin 1))).val
    = ((⟨2, ![131072, 128]⟩ : Shape).rowMajor (((cfg0.win 0).blk t).view.emb (ix2 r l))).val
  rw [Shape.rowMajor_val_two, Shape.rowMajor_val_two]
  show (tileFlat t r l).val * 1 + 0
    = (win0_0.index t (0 : Fin 2) * 4096 + 1 * r.val) * 128 + (win0_0.index t (1 : Fin 2) * 128 + 1 * l.val)
  rw [e0, e1]
  show ((t.val * 4096 + r.val) * 128 + l.val) * 1 + 0 = _
  omega

/-- Row r, lane l of the tile of labels at point t is the label of the flat sample (4096 t + r) 128 + l. -/
theorem tile_t (t : Fin cfg0.N) (r : Fin 4096) (l : Fin 128) :
    (iblk m c 1 t : S4096x128.Idx → BitVec 32) (ix2 r l)
      = m ((c.tc : Thread nD τ).loc main_arg1) (ix1 (tileFlat t r l)) := by
  obtain ⟨-, -, e0, e1⟩ := tile_index t
  unfold iblk
  rw [View.read_apply]
  show (V m c main_v1 : S131072x128.Idx → BitVec 32) (((cfg0.win 1).blk t).view.emb (ix2 r l)) = _
  rw [V_labels]
  refine shapeCast_apply _ _ _ _ ?_
  show ((⟨1, ![16777216]⟩ : Shape).rowMajor (ix1 (tileFlat t r l))).val
    = ((⟨2, ![131072, 128]⟩ : Shape).rowMajor (((cfg0.win 1).blk t).view.emb (ix2 r l))).val
  rw [Shape.rowMajor_val_one, Shape.rowMajor_val_two]
  show (tileFlat t r l).val
    = (win0_1.index t (0 : Fin 2) * 4096 + 1 * r.val) * 128 + (win0_1.index t (1 : Fin 2) * 128 + 1 * l.val)
  rw [e0, e1]
  show (t.val * 4096 + r.val) * 128 + l.val = _
  omega

end Cert.Ghm.K

end
-- ==== Proof.SpecFacts.lean ====
/-
  Small facts about the loss specification: the values of its constants, the range of a bin word, the
  indicator as an if-then-else, and the finiteness and sign of the counts and weights.
-/
import proofs.«181964_j90546500534448_2_alg».proof.Proof.Spec

noncomputable section

open scoped BigOperators

namespace Cert.Ghm

open Idealize.ShloMosaic

/-! ## The constants -/

theorem zeroW_eq : zeroW = 0 := by
  simp [zeroW, Ideal.ofBits, Ideal.ieee]

theorem oneW_eq : oneW = 1 := by
  simp [oneW, Ideal.ofBits, Ideal.ieee, -EReal.coe_mul]; norm_num

theorem nW_eq : nW = ((16777216 : ℝ) : EReal) := by
  simp [nW, Ideal.ofBits, Ideal.ieee, -EReal.coe_mul]; norm_num

theorem epsW_pos : ∃ e : ℝ, 0 < e ∧ epsW = (e : EReal) := by
  refine ⟨((2 ^ 23 + 407485 : ℕ) : ℝ) * (2 : ℝ) ^ ((107 : ℤ) - 127 - 23), by positivity, ?_⟩
  simp [epsW, Ideal.ofBits, Ideal.ieee, -EReal.coe_mul]

/-! ## The indicator -/

theorem ind_eq (b k : BitVec 32) : ind b k = if k = b then 1 else 0 := by
  unfold ind IntOp.cmpi
  by_cases h : k = b
  · subst h; simp
  · have : (k == b) = false := by simpa using h
    simp [this, h]

/-! ## The range of a bin word -/

/-- A word clipped into 0..9 reads, signed, as an integer of that range. -/
theorem clip_range (w : BitVec 32) :
    0 ≤ (IntOp.minsi 9#32 (IntOp.maxsi 0#32 w)).toInt ∧ (IntOp.minsi 9#32 (IntOp.maxsi 0#32 w)).toInt ≤ 9 := by
  have h9 : (9#32 : BitVec 32).toInt = 9 := by decide
  have h0 : (0#32 : BitVec 32).toInt = 0 := by decide
  unfold IntOp.minsi IntOp.maxsi
  simp only [BitVec.slt, decide_eq_true_eq]
  split_ifs with h1 h2 h2 <;> simp only [h9, h0] at * <;> omega

theorem binOf_range (x : EReal) (t : BitVec 32) : 0 ≤ (binOf x t).toInt ∧ (binOf x t).toInt ≤ 9 :=
  clip_range _

theorem not_slt_zero (x : EReal) (t : BitVec 32) : IntOp.cmpi .slt (binOf x t) 0#32 = 0#1 := by
  have h := (binOf_range x t).1
  have h0 : (0#32 : BitVec 32).toInt = 0 := by decide
  unfold IntOp.cmpi
  have : (binOf x t).slt 0#32 = false := by
    simp only [BitVec.slt, h0, decide_eq_false_iff_not, not_lt]; exact h
  simp [this]

section All

variable (xs : Fin NS → EReal) (ts : Fin NS → BitVec 32)

theorem bin_range (a : Fin NS) : 0 ≤ (bin xs ts a).toInt ∧ (bin xs ts a).toInt ≤ 9 :=
  binOf_range _ _

theorem binPos_val (a : Fin NS) : (binPos xs ts a).val = (bin xs ts a).toInt.toNat := by
  have h := bin_range xs ts a
  show min (bin xs ts a).toInt.toNat 9 = _
  omega

theorem bin_eq_iff (b : Fin 10) (a : Fin NS) : bin xs ts a = BitVec.ofNat 32 b.val ↔ binPos xs ts a = b := by
  have h := bin_range xs ts a
  have hb := b.isLt
  have hbi : (BitVec.ofNat 32 b.val).toInt = (b.val : ℤ) := by
    have hn : (BitVec.ofNat 32 b.val).toNat = b.val := by
      rw [BitVec.toNat_ofNat]; omega
    rw [BitVec.toInt_eq_toNat_of_lt (by rw [hn]; omega), hn]
  rw [Fin.ext_iff, binPos_val]
  constructor
  · intro e; rw [e, hbi]; simp
  · intro e; apply BitVec.eq_of_toInt_eq; rw [hbi]; omega

theorem ind_bin (b : Fin 10) (a : Fin NS) :
    ind (BitVec.ofNat 32 b.val) (bin xs ts a) = if binPos xs ts a = b then 1 else 0 := by
  rw [ind_eq]
  by_cases h : binPos xs ts a = b
  · rw [if_pos h, if_pos ((bin_eq_iff xs ts b a).2 h)]
  · rw [if_neg h, if_neg (fun e => h ((bin_eq_iff xs ts b a).1 e))]

/-! ## Counts and weights are nonnegative reals -/

/-- A finite sum of zeros and ones is a natural number. -/
theorem sum_zero_one_nat {ι : Type*} (s : Finset ι) (f : ι → EReal) (h : ∀ a, f a = 0 ∨ f a = 1) :
    ∃ n : ℕ, ∑ a ∈ s, f a = ((n : ℝ) : EReal) := by
  classical
  induction s using Finset.induction_on with
  | empty => exact ⟨0, by simp⟩
  | insert a s ha ih =>
    obtain ⟨n, hn⟩ := ih
    rw [Finset.sum_insert ha, hn]
    rcases h a with h0 | h1
    · exact ⟨n, by rw [h0, zero_add]⟩
    · refine ⟨n + 1, ?_⟩
      rw [h1, Nat.cast_add, Nat.cast_one, EReal.coe_add, EReal.coe_one, add_comm]

theorem cnt_eq_natCast (b : Fin 10) : ∃ n : ℕ, cnt xs ts b = ((n : ℝ) : EReal) := by
  unfold cnt
  apply sum_zero_one_nat
  intro a
  rw [ind_eq]
  split_ifs
  · exact Or.inr rfl
  · exact Or.inl rfl

theorem nonempty_eq_natCast : ∃ n : ℕ, nonempty xs ts = ((n : ℝ) : EReal) := by
  unfold nonempty
  apply sum_zero_one_nat
  intro b
  split_ifs
  · exact Or.inr rfl
  · exact Or.inl rfl

theorem beta_nonneg_finite (b : Fin 10) : ∃ r : ℝ, 0 ≤ r ∧ beta xs ts b = (r : EReal) := by
  obtain ⟨n, hn⟩ := cnt_eq_natCast xs ts b
  obtain ⟨m, hm⟩ := nonempty_eq_natCast xs ts
  obtain ⟨e, he, hE⟩ := epsW_pos
  have hd : max (cnt xs ts b * nonempty xs ts) epsW = ((max ((n : ℝ) * (m : ℝ)) e : ℝ) : EReal) := by
    rw [hn, hm, hE, ← EReal.coe_mul]
    exact (EReal.coe_strictMono.monotone.map_max).symm
  have hpos : 0 < max ((n : ℝ) * (m : ℝ)) e := lt_max_of_lt_right he
  refine ⟨16777216 * (1 / max ((n : ℝ) * (m : ℝ)) e), by positivity, ?_⟩
  unfold beta
  rw [hd, Ideal.div_coe hpos.ne', nW_eq, ← EReal.coe_mul]

end All

end Cert.Ghm

end
-- ==== Proof.Algebra.lean ====
/-
  The two forms of the loss agree, and a sum over all samples is a sum over the tiling.

  Σ_a ce_a β_{pos a} = Σ_a Σ_b [pos a = b] β_b ce_a = Σ_b β_b Σ_a [pos a = b] ce_a.  The last step moves the
  factor β_b across a sum; over the extended reals that is sound because β_b is a nonnegative real, and
  x ↦ r x is additive for a real r ≥ 0 even at the infinities.
-/
import proofs.«181964_j90546500534448_2_alg».proof.Proof.SpecFacts

noncomputable section

open scoped BigOperators

namespace Cert.Ghm

open Idealize.ShloMosaic

/-! ## A nonnegative real factor moves across a finite sum -/

theorem coe_mul_sum {ι : Type*} (s : Finset ι) (r : ℝ) (hr : 0 ≤ r) (g : ι → EReal) :
    (r : EReal) * ∑ a ∈ s, g a = ∑ a ∈ s, (r : EReal) * g a := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-! ## The law -/

section All

variable (xs : Fin NS → EReal) (ts : Fin NS → BitVec 32)

/-- The cross-entropy of a bin is the sum of the cross-entropies of the samples that sit in it. -/
theorem ces_eq (b : Fin 10) : ces xs ts b = ∑ a : Fin NS, if binPos xs ts a = b then ce xs ts a else 0 := by
  unfold ces
  refine Finset.sum_congr rfl (fun a _ => ?_)
  rw [ind_bin]
  split_ifs
  · rw [one_mul]
  · rw [zero_mul]

/-- The weighted sums agree: by bins, and by samples. -/
theorem sum_byBin_eq_sum_bySample :
    ∑ b : Fin 10, beta xs ts b * ces xs ts b = ∑ a : Fin NS, ce xs ts a * beta xs ts (binPos xs ts a) := by
  have h1 : ∀ b : Fin 10, beta xs ts b * ces xs ts b
      = ∑ a : Fin NS, if binPos xs ts a = b then beta xs ts b * ce xs ts a else 0 := by
    intro b
    obtain ⟨r, hr, hb⟩ := beta_nonneg_finite xs ts b
    rw [ces_eq, hb, coe_mul_sum _ r hr]
    refine Finset.sum_congr rfl (fun a _ => ?_)
    split_ifs
    · rfl
    · rw [mul_zero]
  rw [Finset.sum_congr rfl (fun b _ => h1 b), Finset.sum_comm]
  refine Finset.sum_congr rfl (fun a _ => ?_)
  rw [Finset.sum_ite_eq Finset.univ (binPos xs ts a) (fun b => beta xs ts b * ce xs ts a),
    if_pos (Finset.mem_univ _), mul_comm]

theorem lossByBin_eq_lossBySample : lossByBin xs ts = lossBySample xs ts := by
  unfold lossByBin lossBySample
  rw [sum_byBin_eq_sum_bySample]

end All

/-! ## The tiling -/

/-- The four tiling coordinates of a flat sample. -/
def unflat (a : Fin NS) : Fin 2 × Fin 16 × Fin 4096 × Fin 128 :=
  (⟨a.val / 8388608, by have h : a.val < 16777216 := a.isLt; omega⟩,
   ⟨a.val / 524288 % 16, by omega⟩,
   ⟨a.val / 128 % 4096, by omega⟩,
   ⟨a.val % 128, by omega⟩)

/-- The tiling is a bijection between the coordinates and the flat samples. -/
def flatEquiv : (Fin 2 × Fin 16 × Fin 4096 × Fin 128) ≃ Fin NS where
  toFun p := flat p.1 p.2.1 p.2.2.1 p.2.2.2
  invFun := unflat
  left_inv := by
    rintro ⟨c, s, r, l⟩
    have := c.isLt; have := s.isLt; have := r.isLt; have := l.isLt
    simp only [unflat, flat, Prod.mk.injEq, Fin.ext_iff]
    refine ⟨?_, ?_, ?_, ?_⟩ <;> omega
  right_inv := by
    intro a
    have h : a.val < 16777216 := a.isLt
    simp only [unflat, flat, Fin.ext_iff]
    omega

theorem sum_flat {M : Type*} [AddCommMonoid M] (f : Fin NS → M) :
    ∑ a, f a = ∑ c : Fin 2, ∑ s : Fin 16, ∑ r : Fin 4096, ∑ l : Fin 128, f (flat c s r l) := by
  rw [← Fintype.sum_equiv flatEquiv (fun p => f (flat p.1 p.2.1 p.2.2.1 p.2.2.2)) f (fun _ => rfl)]
  simp only [Fintype.sum_prod_type]

end Cert.Ghm

end
-- ==== Proof.KTail.lean ====
/-
  The last host operations of the kernel program, as one function of the two arrays the kernel returns, and
  what it computes: the loss in its bin-by-bin form.

  From the per-core, per-lane partial counts and cross-entropy sums the tail sums each bin over the two cores
  and the 128 lanes, counts the nonempty bins, forms the weights N / max(n_b m, ε), and divides the weighted
  total by N.  With the partial sums read as sums over the tiles and rows of the tiling, the sum over cores,
  lanes, tiles and rows is the sum over all samples.
-/
import proofs.«181964_j90546500534448_2_alg».proof.KernelIdeal
import proofs.«181964_j90546500534448_2_alg».proof.Proof.Gen.KernelIdeal
import proofs.«181964_j90546500534448_2_alg».proof.Proof.Algebra
import Idealize.ShloMosaic.Lib.IdealHost

noncomputable section

open scoped BigOperators

namespace Cert.Ghm.K

open Idealize.ShloMosaic Idealize.ShloMosaic.ValueIdx
open Cert.KernelIdeal Cert.KernelIdeal.Facts₀

/-! ## The tail, operation by operation -/

/-- The scalar zero every reduction starts from. -/
def kZero : FVec Ideal S_ .f32 := constant (F := Ideal) S_ .f32 0x00000000#32

/-- A returned array summed over the cores and the lanes. -/
def kSum (arr : FVec Ideal S2x10x128 .f32) : FVec Ideal S10 .f32 :=
  Host.reduceAdd (F := Ideal) arr kZero reducesTo_S2x10x128_S10_d0_2 h_S_

/-- The number of nonempty bins. -/
def kNonempty (cntArr : FVec Ideal S2x10x128 .f32) : FVec Ideal S_ .f32 :=
  Host.reduceAdd (F := Ideal)
    (uitofp (F := Ideal) .f32 (cmpf .ogt (kSum cntArr) (broadcastInDim S10 ![] bcast_S_S10 kZero)))
    kZero reducesTo_S10_S_d0 h_S_

/-- The weights of the ten bins. -/
def kBeta (cntArr : FVec Ideal S2x10x128 .f32) : FVec Ideal S10 .f32 :=
  Host.divf (F := Ideal)
    (broadcastInDim S10 ![] bcast_S_S10 (constant (F := Ideal) S_ .f32 0x4B800000#32))
    (maximumf (mulf (kSum cntArr) (broadcastInDim S10 ![] bcast_S_S10 (kNonempty cntArr)))
      (broadcastInDim S10 ![] bcast_S_S10 (constant (F := Ideal) S_ .f32 0x358637BD#32)))

/-- The tail: the weighted total over the bins, divided by the number of samples. -/
def kTail (cntArr ceArr : FVec Ideal S2x10x128 .f32) : FVec Ideal S_ .f32 :=
  Host.divf (F := Ideal)
    (Host.reduceAdd (F := Ideal) (mulf (kBeta cntArr) (kSum ceArr)) kZero reducesTo_S10_S_d0 h_S_)
    (constant (F := Ideal) S_ .f32 0x4B800000#32)

/-! ## Sums over the indices of an array -/

theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- Dropping the core and the lane of (c, b, l) leaves the bin b. -/
theorem drop_ix3 (c : Fin 2) (b : Fin 10) (l : Fin 128) :
    (reducesTo_S2x10x128_S10_d0_2).drop (ix3 c b l) = ix1 b := by
  funext d
  match d with
  | ⟨0, _⟩ => rfl

/-- The sum over the cores and the lanes, at bin b. -/
theorem kSum_apply (arr : FVec Ideal S2x10x128 .f32) (b : Fin 10) :
    kSum arr (ix1 b) = ∑ c : Fin 2, ∑ l : Fin 128, arr (ix3 c b l) := by
  show Ideal.hostReduceAdd _ arr (kZero _) (ix1 b) = _
  unfold Ideal.hostReduceAdd
  have hz : kZero (Shape.Idx.first h_S_) = 0 := Ideal.ofBits_zero_f32
  rw [hz, zero_add, Finset.sum_filter, sum_idx3]
  refine Finset.sum_congr rfl (fun c _ => ?_)
  rw [Finset.sum_comm]
  refine Finset.sum_congr rfl (fun l _ => ?_)
  simp only [drop_ix3]
  have : ∀ b' : Fin 10, (ix1 b' = ix1 b) ↔ b' = b := fun b' =>
    ⟨fun h => by have := congrFun h 0; exact this, fun h => by rw [h]⟩
  simp only [this]
  rw [Finset.sum_ite_eq' Finset.univ b (fun b' => arr (ix3 c b' l)), if_pos (Finset.mem_univ _)]

/-! ## The tail on the tiled partial sums -/

section Main

variable (cntArr ceArr : FVec Ideal S2x10x128 .f32) (xs : Fin NS → EReal) (ts : Fin NS → BitVec 32)

/-- A sum over cores, lanes, tiles and rows is the sum over all samples. -/
theorem sum_tiles {M : Type*} [AddCommMonoid M] (f : Fin NS → M) :
    ∑ c : Fin 2, ∑ l : Fin 128, ∑ s : Fin 16, ∑ r : Fin 4096, f (flat c s r l) = ∑ a, f a := by
  rw [sum_flat]
  refine Finset.sum_congr rfl (fun c _ => ?_)
  rw [Finset.sum_comm]
  refine Finset.sum_congr rfl (fun s _ => ?_)
  rw [Finset.sum_comm]

theorem kSum_cnt
    (hc : ∀ (c : Fin 2) (b : Fin 10) (l : Fin 128), cntArr (ix3 c b l)
      = ∑ s : Fin 16, ∑ r : Fin 4096, ind (BitVec.ofNat 32 b.val) (bin xs ts (flat c s r l)))
    (b : Fin 10) : kSum cntArr (ix1 b) = cnt xs ts b := by
  rw [kSum_apply]
  simp only [hc]
  exact sum_tiles (fun a => ind (BitVec.ofNat 32 b.val) (bin xs ts a))

theorem kSum_ces
    (he : ∀ (c : Fin 2) (b : Fin 10) (l : Fin 128), ceArr (ix3 c b l)
      = ∑ s : Fin 16, ∑ r : Fin 4096,
          ind (BitVec.ofNat 32 b.val) (bin xs ts (flat c s r l)) * ce xs ts (flat c s r l))
    (b : Fin 10) : kSum ceArr (ix1 b) = ces xs ts b := by
  rw [kSum_apply]
  simp only [he]
  exact sum_tiles (fun a => ind (BitVec.ofNat 32 b.val) (bin xs ts a) * ce xs ts a)

/-- A reduction of a flat array of ten into a scalar, from zero, is the sum of the ten. -/
theorem reduce10_apply (x : FVec Ideal S10 .f32) (j : S_.Idx) :
    Host.reduceAdd (F := Ideal) x kZero reducesTo_S10_S_d0 h_S_ j = ∑ b : Fin 10, x (ix1 b) := by
  show Ideal.hostReduceAdd _ x (kZero _) j = _
  have hz : kZero (Shape.Idx.first h_S_) = 0 := Ideal.ofBits_zero_f32
  rw [Ideal.hostReduceAdd_total _ (fun b => b.elim0), hz, zero_add, sum_idx1]

theorem kNonempty_eq
    (hc : ∀ (c : Fin 2) (b : Fin 10) (l : Fin 128), cntArr (ix3 c b l)
      = ∑ s : Fin 16, ∑ r : Fin 4096, ind (BitVec.ofNat 32 b.val) (bin xs ts (flat c s r l)))
    (j : S_.Idx) : kNonempty cntArr j = nonempty xs ts := by
  unfold kNonempty
  rw [reduce10_apply]
  unfold nonempty
  refine Finset.sum_congr rfl (fun b _ => ?_)
  show (((Ideal.cmp .ogt (kSum cntArr (ix1 b)) (broadcastInDim S10 ![] bcast_S_S10 kZero (ix1 b))).toNat : ℝ) : EReal) = _
  rw [broadcastInDim_scalar_apply, kSum_cnt cntArr xs ts hc]
  have hz : kZero ix0 = 0 := Ideal.ofBits_zero_f32
  rw [hz]
  unfold Ideal.cmp
  by_cases h : 0 < cnt xs ts b
  · simp [h]
  · simp [h]

theorem kBeta_eq
    (hc : ∀ (c : Fin 2) (b : Fin 10) (l : Fin 128), cntArr (ix3 c b l)
      = ∑ s : Fin 16, ∑ r : Fin 4096, ind (BitVec.ofNat 32 b.val) (bin xs ts (flat c s r l)))
    (b : Fin 10) : kBeta cntArr (ix1 b) = beta xs ts b := by
  unfold kBeta
  rw [hostDivf_apply, maximumf_apply, mulf_apply, broadcastInDim_scalar_apply, broadcastInDim_scalar_apply,
    broadcastInDim_scalar_apply, kSum_cnt cntArr xs ts hc, kNonempty_eq cntArr xs ts hc]
  rfl

theorem kTail_eq
    (hc : ∀ (c : Fin 2) (b : Fin 10) (l : Fin 128), cntArr (ix3 c b l)
      = ∑ s : Fin 16, ∑ r : Fin 4096, ind (BitVec.ofNat 32 b.val) (bin xs ts (flat c s r l)))
    (he : ∀ (c : Fin 2) (b : Fin 10) (l : Fin 128), ceArr (ix3 c b l)
      = ∑ s : Fin 16, ∑ r : Fin 4096,
          ind (BitVec.ofNat 32 b.val) (bin xs ts (flat c s r l)) * ce xs ts (flat c s r l)) :
    kTail cntArr ceArr = fun _ => lossByBin xs ts := by
  funext j
  unfold kTail
  rw [hostDivf_apply, reduce10_apply]
  simp only [mulf_apply, kBeta_eq cntArr xs ts hc, kSum_ces ceArr xs ts he]
  rfl

end Main

end Cert.Ghm.K

end
-- ==== Proof.KFinal.lean ====
/-
  From the last tile of each core to the two result arrays, and through the host tail to the result.

  Each core accumulates, over its sixteen tiles, a block of ten bins by 128 lanes of counts and one of cross-entropy
  sums, and writes the block back once, after its last tile (the points 15 and 31): core c's block is row c of the
  result array.  So the result arrays are known as soon as the accumulators after those two points are, and the
  program's result is the host tail of the two arrays.
-/
import proofs.«181964_j90546500534448_2_alg».proof.Proof.Gen.KernelIdeal.Frame
import proofs.«181964_j90546500534448_2_alg».proof.Proof.KTail
import Idealize.ShloMosaic.Lib.Pipeline.Value
import Idealize.ShloMosaic.Lib.StableHlo.Run
import Idealize.ShloMosaic.Lib.Tactic

noncomputable section

namespace Cert.Ghm.K

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- Two blocks of one core agree when they agree at every bin and lane. -/
theorem blk_ext (f g : S1x10x128.Idx → EReal)
    (h : ∀ (b : Fin 10) (l : Fin 128), f (ix3 (0 : Fin 1) b l) = g (ix3 (0 : Fin 1) b l)) : f = g := by
  funext y
  have h0 : y 0 = (0 : Fin 1) := Fin.ext (by
    show (y 0).val = 0
    have h : (y 0).val < 1 := (y 0).isLt
    omega)
  have e : y = ix3 (0 : Fin 1) (y 1) (y 2) := by
    rw [eq_ix3 y]
    funext a
    match a with
    | ⟨0, _⟩ => exact h0
    | ⟨1, _⟩ => rfl
    | ⟨2, _⟩ => rfl
  rw [e]
  exact h _ _

/-- Each output window's block at point t is the block of core t / 16. -/
theorem out_index : ∀ t : Fin cfg0.N, win0_2.index t (0 : Fin 3) = t.val / 16 ∧ win0_2.index t (1 : Fin 3) = 0
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

section Counts

variable (G : S2x10x128.Idx → EReal)
  (hlast : ∀ (c' : Fin 2) (h : 16 * c'.val + 15 < cfg0.N) (b : Fin 10) (l : Fin 128),
    (outsAt0 m c (16 * c'.val + 15) h).1 (ix3 (0 : Fin 1) b l) = G (ix3 c' b l))

include hlast in
/-- What a write-back of the counts writes is the core's row of G. -/
theorem flushed2_eq (t : Fin cfg0.N) (hf : (cfg0.win 2).flush t = true) :
    (dats m 0 c).flushed 2 t = ((cfg0.win 2).blk t).view.read (Elt Ideal) G := by
  obtain ⟨n, hn⟩ := t
  have h15 : n % 16 = 15 := (flush0_2 ⟨n, hn⟩).mp hf
  have hN : n < 32 := lt_of_lt_of_eq hn (show cfg0.N = 32 from N_0)
  obtain ⟨k, rfl⟩ : ∃ k, n = 16 * k + 15 := ⟨n / 16, by omega⟩
  have hk : k < 2 := by omega
  obtain ⟨e0, e1, e2, -, -, -⟩ := out_index ⟨16 * k + 15, hn⟩
  show (cfg0.win 2).cut (grid0.coords ⟨16 * k + 15, hn⟩) ((dats m 0 c).after 2 ⟨16 * k + 15, hn⟩) = _
  rw [after0_2]
  refine blk_ext _ _ (fun b l => ?_)
  show (outsAt0 m c (16 * k + 15) hn).1 (ix3 (0 : Fin 1) b l)
    = G (((cfg0.win 2).blk ⟨16 * k + 15, hn⟩).view.emb (ix3 (0 : Fin 1) b l))
  refine (hlast ⟨k, hk⟩ hn b l).trans (congrArg G ?_)
  funext a
  apply Fin.ext
  match a with
  | ⟨0, _⟩ =>
    show k = win0_2.index ⟨16 * k + 15, hn⟩ (0 : Fin 3) * 1 + 1 * 0
    rw [e0]; show k = (16 * k + 15) / 16 * 1 + 1 * 0; omega
  | ⟨1, _⟩ =>
    show b.val = win0_2.index ⟨16 * k + 15, hn⟩ (1 : Fin 3) * 10 + 1 * b.val
    rw [e1]; omega
  | ⟨2, _⟩ =>
    show l.val = win0_2.index ⟨16 * k + 15, hn⟩ (2 : Fin 3) * 128 + 1 * l.val
    rw [e2]; omega

end Counts

/-- An index of a result array is in point t's block of window 2 iff each coordinate is in the block's range. -/
theorem mem_blk2 (t : Fin cfg0.N) (i : S2x10x128.Idx) :
    i ∈ ((cfg0.win 2).blk t).view.set ↔ ∀ a : Fin 3, win0_2.index t a * S1x10x128.size a ≤ (i a).val
      ∧ (i a).val < win0_2.index t a * S1x10x128.size a + S1x10x128.size a := by
  show i ∈ ((View.whole main_v2_0).slice (win0_2.rect t)).set ↔ _
  rw [View.set_slice_whole, Rect.mem_set_unit]
  exact Iff.rfl

/-- Every index of the counts array is written back: row c' at the point after core c''s last tile. -/
theorem cover2 (i : S2x10x128.Idx) :
    ∃ t : Fin cfg0.N, (cfg0.win 2).flush t = true ∧ i ∈ ((cfg0.win 2).blk t).view.set := by
  have h0 : (i 0).val < 2 := (i 0).isLt
  have h1 : (i 1).val < 10 := (i 1).isLt
  have h2 : (i 2).val < 128 := (i 2).isLt
  have hN : cfg0.N = 32 := N_0
  have ht : 16 * (i 0).val + 15 < cfg0.N := by rw [hN]; omega
  obtain ⟨e0, e1, e2, -, -, -⟩ := out_index ⟨16 * (i 0).val + 15, ht⟩
  refine ⟨⟨16 * (i 0).val + 15, ht⟩, (flush0_2 _).mpr (by show (16 * (i 0).val + 15) % 16 = 15; omega), ?_⟩
  rw [mem_blk2]
  intro a
  match a with
  | ⟨0, _⟩ =>
    show win0_2.index ⟨16 * (i 0).val + 15, ht⟩ (0 : Fin 3) * 1 ≤ (i 0).val
      ∧ (i 0).val < win0_2.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win0_2.index ⟨16 * (i 0).val + 15, ht⟩ (1 : Fin 3) * 10 ≤ (i 1).val
      ∧ (i 1).val < win0_2.index ⟨16 * (i 0).val + 15, ht⟩ (1 : Fin 3) * 10 + 10
    rw [e1]; omega
  | ⟨2, _⟩ =>
    show win0_2.index ⟨16 * (i 0).val + 15, ht⟩ (2 : Fin 3) * 128 ≤ (i 2).val
      ∧ (i 2).val < win0_2.index ⟨16 * (i 0).val + 15, ht⟩ (2 : Fin 3) * 128 + 128
    rw [e2]; omega

section Counts2

variable (G : S2x10x128.Idx → EReal)

/-- The counts array after the run is G, as soon as each core's accumulator after its last tile is G's row. -/
theorem final2_of_last
    (hlast : ∀ (c' : Fin 2) (h : 16 * c'.val + 15 < cfg0.N) (b : Fin 10) (l : Fin 128),
      (outsAt0 m c (16 * c'.val + 15) h).1 (ix3 (0 : Fin 1) b l) = G (ix3 c' b l)) :
    (dats m 0 c).arrAt 2 cfg0.N = G :=
  (dats m 0 c).arrAt_eq_of_cover 2 G (flushed2_eq m c G hlast) cover2

end Counts2

/-! ## The cross-entropy sums: the same, for the second result array -/

section Sums

variable (G : S2x10x128.Idx → EReal)
  (hlast : ∀ (c' : Fin 2) (h : 16 * c'.val + 15 < cfg0.N) (b : Fin 10) (l : Fin 128),
    (outsAt0 m c (16 * c'.val + 15) h).2 (ix3 (0 : Fin 1) b l) = G (ix3 c' b l))

include hlast in
/-- What a write-back of the cross-entropy sums writes is the core's row of G. -/
theorem flushed3_eq (t : Fin cfg0.N) (hf : (cfg0.win 3).flush t = true) :
    (dats m 0 c).flushed 3 t = ((cfg0.win 3).blk t).view.read (Elt Ideal) G := by
  obtain ⟨n, hn⟩ := t
  have h15 : n % 16 = 15 := (flush0_3 ⟨n, hn⟩).mp hf
  have hN : n < 32 := lt_of_lt_of_eq hn (show cfg0.N = 32 from N_0)
  obtain ⟨k, rfl⟩ : ∃ k, n = 16 * k + 15 := ⟨n / 16, by omega⟩
  have hk : k < 2 := by omega
  obtain ⟨-, -, -, e0, e1, e2⟩ := out_index ⟨16 * k + 15, hn⟩
  show (cfg0.win 3).cut (grid0.coords ⟨16 * k + 15, hn⟩) ((dats m 0 c).after 3 ⟨16 * k + 15, hn⟩) = _
  rw [after0_3]
  refine blk_ext _ _ (fun b l => ?_)
  show (outsAt0 m c (16 * k + 15) hn).2 (ix3 (0 : Fin 1) b l)
    = G (((cfg0.win 3).blk ⟨16 * k + 15, hn⟩).view.emb (ix3 (0 : Fin 1) b l))
  refine (hlast ⟨k, hk⟩ hn b l).trans (congrArg G ?_)
  funext a
  apply Fin.ext
  match a with
  | ⟨0, _⟩ =>
    show k = win0_3.index ⟨16 * k + 15, hn⟩ (0 : Fin 3) * 1 + 1 * 0
    rw [e0]; show k = (16 * k + 15) / 16 * 1 + 1 * 0; omega
  | ⟨1, _⟩ =>
    show b.val = win0_3.index ⟨16 * k + 15, hn⟩ (1 : Fin 3) * 10 + 1 * b.val
    rw [e1]; omega
  | ⟨2, _⟩ =>
    show l.val = win0_3.index ⟨16 * k + 15, hn⟩ (2 : Fin 3) * 128 + 1 * l.val
    rw [e2]; omega

end Sums

theorem mem_blk3 (t : Fin cfg0.N) (i : S2x10x128.Idx) :
    i ∈ ((cfg0.win 3).blk t).view.set ↔ ∀ a : Fin 3, win0_3.index t a * S1x10x128.size a ≤ (i a).val
      ∧ (i a).val < win0_3.index t a * S1x10x128.size a + S1x10x128.size a := by
  show i ∈ ((View.whole main_v2_1).slice (win0_3.rect t)).set ↔ _
  rw [View.set_slice_whole, Rect.mem_set_unit]
  exact Iff.rfl

theorem cover3 (i : S2x10x128.Idx) :
    ∃ t : Fin cfg0.N, (cfg0.win 3).flush t = true ∧ i ∈ ((cfg0.win 3).blk t).view.set := by
  have h0 : (i 0).val < 2 := (i 0).isLt
  have h1 : (i 1).val < 10 := (i 1).isLt
  have h2 : (i 2).val < 128 := (i 2).isLt
  have hN : cfg0.N = 32 := N_0
  have ht : 16 * (i 0).val + 15 < cfg0.N := by rw [hN]; omega
  obtain ⟨-, -, -, e0, e1, e2⟩ := out_index ⟨16 * (i 0).val + 15, ht⟩
  refine ⟨⟨16 * (i 0).val + 15, ht⟩, (flush0_3 _).mpr (by show (16 * (i 0).val + 15) % 16 = 15; omega), ?_⟩
  rw [mem_blk3]
  intro a
  match a with
  | ⟨0, _⟩ =>
    show win0_3.index ⟨16 * (i 0).val + 15, ht⟩ (0 : Fin 3) * 1 ≤ (i 0).val
      ∧ (i 0).val < win0_3.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win0_3.index ⟨16 * (i 0).val + 15, ht⟩ (1 : Fin 3) * 10 ≤ (i 1).val
      ∧ (i 1).val < win0_3.index ⟨16 * (i 0).val + 15, ht⟩ (1 : Fin 3) * 10 + 10
    rw [e1]; omega
  | ⟨2, _⟩ =>
    show win0_3.index ⟨16 * (i 0).val + 15, ht⟩ (2 : Fin 3) * 128 ≤ (i 2).val
      ∧ (i 2).val < win0_3.index ⟨16 * (i 0).val + 15, ht⟩ (2 : Fin 3) * 128 + 128
    rw [e2]; omega

section Sums2

variable (G : S2x10x128.Idx → EReal)

/-- The array of cross-entropy sums after the run is G, as soon as each core's accumulator after its last tile is
    G's row. -/
theorem final3_of_last
    (hlast : ∀ (c' : Fin 2) (h : 16 * c'.val + 15 < cfg0.N) (b : Fin 10) (l : Fin 128),
      (outsAt0 m c (16 * c'.val + 15) h).2 (ix3 (0 : Fin 1) b l) = G (ix3 c' b l)) :
    (dats m 0 c).arrAt 3 cfg0.N = G :=
  (dats m 0 c).arrAt_eq_of_cover 3 G (flushed3_eq m c G hlast) cover3

end Sums2

/-! ## The run, read back -/

/-- The host operations after the region leave, in the result buffer, the tail of the two result arrays. -/
theorem tail_result :
    Pipeline.afterTail₀ cfgs (dats m) 0 (V0 m) [hostOps1] c main_v17
      = kTail ((dats m 0 c).arrAt 2 cfg0.N) ((dats m 0 c).arrAt 3 cfg0.N) := by
  unfold Pipeline.afterTail₀
  show StableHlo.after hostOps1 _ (Proc.devRef .tc main_v17) = _
  after_results
  have e2 : Pipeline.withArrays (cfgs 0).spec c (V0 m c) (fun w => (dats m 0 c).arrAt w (cfgs 0).N)
      (Proc.devRef .tc main_v2_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v2_1) = (dats m 0 c).arrAt 3 cfg0.N :=
    Pipeline.withArrays_arr spec0 launch0.win.arr_inj c _ _ 3
  rw [e2, e3]
  rfl

/-- THE RUN: every fair execution of the kernel program ends with the tail of the two result arrays in the result
    buffer, and with the two arguments as they were. -/
theorem kernel_run : θ_run defs (onTc (τ := τ) (main (F := Ideal))) ⟨m, fun _ => 0, ρ⟩ fun r => ∀ c : Dev nD,
    r.2.mem ((c.tc : Thread nD τ).loc main_v17)
        = kTail ((dats m 0 c).arrAt 2 cfg0.N) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Ghm.K

end
-- ==== Proof.KValue.lean ====
/-
  The kernel's result as a function of the samples.

  After the run the two result arrays hold, at (core c, bin b, lane l), the number of samples of bin b among
  the 16 · 4096 samples of core c's tiles in column l, and the sum of their cross-entropies; the host tail
  turns them into the loss bin by bin.
-/
import proofs.«181964_j90546500534448_2_alg».proof.Proof.KInv
import proofs.«181964_j90546500534448_2_alg».proof.Proof.KBlocks
import proofs.«181964_j90546500534448_2_alg».proof.Proof.KFinal
import proofs.«181964_j90546500534448_2_alg».proof.Proof.KTail

set_option maxRecDepth 16384

noncomputable section

open scoped BigOperators

namespace Cert.Ghm.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The logits, sample by sample, -/
def xsOf (c : Dev nD) : Fin NS → EReal := fun a => m ((c.tc : Thread nD τ).loc main_arg0) (ix2 a (0 : Fin 1))
/-- and the label words. -/
def tsOf (c : Dev nD) : Fin NS → BitVec 32 := fun a => m ((c.tc : Thread nD τ).loc main_arg1) (ix1 a)

/-- The count array: per (core, bin, lane) the sum over the core's 16 tiles. -/
def cntArr (c : Dev nD) : S2x10x128.Idx → EReal := fun i =>
  ∑ s : Fin 16, tcnt m c (16 * (i 0).val + s.val) ⟨(i 1).val, (i 1).isLt⟩ ⟨(i 2).val, (i 2).isLt⟩
/-- The cross-entropy array likewise. -/
def ceArr (c : Dev nD) : S2x10x128.Idx → EReal := fun i =>
  ∑ s : Fin 16, tces m c (16 * (i 0).val + s.val) ⟨(i 1).val, (i 1).isLt⟩ ⟨(i 2).val, (i 2).isLt⟩

theorem final2 (c : Dev nD) : (dats m 0 c).arrAt 2 cfg0.N = cntArr m c :=
  final2_of_last m c (cntArr m c) fun c' h b l => (last_blocks m c c' h b l).1

theorem final3 (c : Dev nD) : (dats m 0 c).arrAt 3 cfg0.N = ceArr m c :=
  final3_of_last m c (ceArr m c) fun c' h b l => (last_blocks m c c' h b l).2

/-- A tile's bin word at (r, l) is the bin of the sample it holds there. -/
theorem tb_apply (c : Dev nD) (c' : Fin 2) (s : Fin 16) (h : 16 * c'.val + s.val < cfg0.N) (r : Fin 4096) (l : Fin 128) :
    tb m c ⟨16 * c'.val + s.val, h⟩ (ix2 r l) = bin (xsOf m c) (tsOf m c) (flat c' s r l) := by
  show k0_pay6 (F := Ideal) (iblk m c 0 ⟨16 * c'.val + s.val, h⟩) (iblk m c 1 ⟨16 * c'.val + s.val, h⟩) (ix2 r l) = _
  rw [tile_bin]
  show binOf ((iblk m c 0 ⟨16 * c'.val + s.val, h⟩ : S4096x128.Idx → EReal) (ix2 r l))
    ((iblk m c 1 ⟨16 * c'.val + s.val, h⟩ : S4096x128.Idx → BitVec 32) (ix2 r l)) = _
  rw [tile_x, tile_t, tileFlat_eq]
  rfl

/-- And its cross-entropy there is that sample's. -/
theorem tce_apply (c : Dev nD) (c' : Fin 2) (s : Fin 16) (h : 16 * c'.val + s.val < cfg0.N) (r : Fin 4096) (l : Fin 128) :
    tce m c ⟨16 * c'.val + s.val, h⟩ (ix2 r l) = ce (xsOf m c) (tsOf m c) (flat c' s r l) := by
  show k0_pay7 (F := Ideal) (iblk m c 0 ⟨16 * c'.val + s.val, h⟩) (iblk m c 1 ⟨16 * c'.val + s.val, h⟩) (ix2 r l) = _
  rw [tile_ce]
  show ceOf ((iblk m c 0 ⟨16 * c'.val + s.val, h⟩ : S4096x128.Idx → EReal) (ix2 r l))
    ((iblk m c 1 ⟨16 * c'.val + s.val, h⟩ : S4096x128.Idx → BitVec 32) (ix2 r l)) = _
  rw [tile_x, tile_t, tileFlat_eq]
  rfl

theorem tile_lt (c' : Fin 2) (s : Fin 16) : 16 * c'.val + s.val < cfg0.N := by
  have h1 := c'.isLt; have h2 := s.isLt
  show 16 * c'.val + s.val < grid0.N
  rw [N_0]; omega

theorem cntArr_apply (c : Dev nD) (c' : Fin 2) (b : Fin 10) (l : Fin 128) :
    cntArr m c (ix3 c' b l)
      = ∑ s : Fin 16, ∑ r : Fin 4096, ind (BitVec.ofNat 32 b.val) (bin (xsOf m c) (tsOf m c) (flat c' s r l)) := by
  show ∑ s : Fin 16, tcnt m c (16 * c'.val + s.val) b l = _
  refine Finset.sum_congr rfl fun s _ => ?_
  unfold tcnt
  rw [dif_pos (tile_lt c' s)]
  unfold tileCnt
  refine Finset.sum_congr rfl fun r _ => ?_
  rw [tb_apply]

theorem ceArr_apply (c : Dev nD) (c' : Fin 2) (b : Fin 10) (l : Fin 128) :
    ceArr m c (ix3 c' b l)
      = ∑ s : Fin 16, ∑ r : Fin 4096, ind (BitVec.ofNat 32 b.val) (bin (xsOf m c) (tsOf m c) (flat c' s r l))
          * ce (xsOf m c) (tsOf m c) (flat c' s r l) := by
  show ∑ s : Fin 16, tces m c (16 * c'.val + s.val) b l = _
  refine Finset.sum_congr rfl fun s _ => ?_
  unfold tces
  rw [dif_pos (tile_lt c' s)]
  unfold tileCe
  refine Finset.sum_congr rfl fun r _ => ?_
  rw [tb_apply, tce_apply]

/-- The kernel's run: its result is the loss, bin by bin, of the samples; the arguments are unchanged. -/
theorem kernel_value : θ_run defs (onTc (τ := τ) (main (F := Ideal))) ⟨m, fun _ => 0, ρ⟩ fun r => ∀ c : Dev nD,
      r.2.mem ((c.tc : Thread nD τ).loc main_v17) = (fun _ => lossByBin (xsOf m c) (tsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      rw [final2, final3]
      exact kTail_eq (cntArr m c) (ceArr m c) (xsOf m c) (tsOf m c) (cntArr_apply m c) (ceArr_apply m c)), (h c).2⟩)
    (kernel_run m ρ)

end Cert.Ghm.K

end
-- ==== Proof.RefRun.lean ====
/-
  The reference program's run, read back: @main as the list of its 81 host operations (the six of the
  clipping function it calls standing at the call), and the contents of its result buffer after every weakly
  fair execution, stated as a chain of small named stages of the two argument arrays: the logits as a vector,
  the labels as floats, the gradient norm, the bin words, the index column, the histogram (a scatter-add of
  ones), the number of nonempty bins, the weights per bin, the weights per sample (a gather), the
  cross-entropy per sample, and the weighted mean.
-/
import proofs.«181964_j90546500534448_2_alg».proof.Proof.Gen.ReferenceIdeal
import Idealize.ShloMosaic.Lib.StableHlo.Run

noncomputable section

namespace Cert.Ghm.Ref

open Cert.ReferenceIdeal Cert.ReferenceIdeal.Gen Idealize.ShloMosaic Idealize.ShloMosaic.TcCoe Idealize.SL.Sem Idealize.ShloMosaic.StableHlo

variable {F : FTy → Type} [FloatOps F]

/-- @main's 81 operations, in order (a called function's operations stand in its call's place, spelt `TRef.…`). -/
abbrev ops : List (HloOp τ sig (Elt F)) :=
  [ reshape main_arg0 main_v0 rfl shapeCasts_S16777216x1_S16777216,
    unary main_arg1 main_v1 (sitofp .f32 : (⟨S16777216, .i32⟩ : BufTy).Contents (Elt F) → (⟨S16777216, .f32⟩ : BufTy).Contents (Elt F)),
    unary main_v0 main_v2 (Host.negf : (⟨S16777216, .f32⟩ : BufTy).Contents (Elt F) → (⟨S16777216, .f32⟩ : BufTy).Contents (Elt F)),
    unary main_v2 main_v3 (Host.exp : (⟨S16777216, .f32⟩ : BufTy).Contents (Elt F) → (⟨S16777216, .f32⟩ : BufTy).Contents (Elt F)),
    nullary main_cst (constant S_ .f32 0x3F800000#32),
    unary main_cst main_v4 (broadcastInDim S16777216 ![] bcast_S_S16777216 : (⟨S_, .f32⟩ : BufTy).Contents (Elt F) → (⟨S16777216, .f32⟩ : BufTy).Contents (Elt F)),
    binary main_v4 main_v3 main_v5 (addf : (⟨S16777216, .f32⟩ : BufTy).Contents (Elt F) → (⟨S16777216, .f32⟩ : BufTy).Contents (Elt F) → (⟨S16777216, .f32⟩ : BufTy).Contents (Elt F)),
    nullary main_cst_0 (constant S_ .f32 0x3F800000#32),
    unary main_cst_0 main_v6 (broadcastInDim S16777216 ![] bcast_S_S16777216 : (⟨S_, .f32⟩ : BufTy).Contents (Elt F) → (⟨S16777216, .f32⟩ : BufTy).Contents (Elt F)),
    binary main_v6 main_v5 main_v7 (Host.divf : (⟨S16777216, .f32⟩ : BufTy).Contents (Elt F) → (⟨S16777216, .f32⟩ : BufTy).Contents (Elt F) → (⟨S16777216, .f32⟩ : BufTy).Contents (Elt F)),
    binary main_v7 main_v1 main_v8 (subf : (⟨S16777216, .f32⟩ : BufTy).Contents (Elt F) → (⟨S16777216, .f32⟩ : BufTy).Contents (Elt F) → (⟨S16777216, .f32⟩ : BufTy).Contents (Elt F)),
    unary main_v8 main_v9 (Host.absf : (⟨S16777216, .f32⟩ : BufTy).Contents (Elt F) → (⟨S16777216, .f32⟩ : BufTy).Contents (Elt F)),
    nullary main_cst_1 (constant S_ .f32 0x411FFF97#32),
    unary main_cst_1 main_v10 (broadcastInDim S16777216 ![] bcast_S_S16777216 : (⟨S_, .f32⟩ : BufTy).Contents (Elt F) → (⟨S16777216, .f32⟩ : BufTy).Contents (Elt F)),
    binary main_v9 main_v10 main_v11 (mulf : (⟨S16777216, .f32⟩ : BufTy).Contents (Elt F) → (⟨S16777216, .f32⟩ : BufTy).Contents (Elt F) → (⟨S16777216, .f32⟩ : BufTy).Contents (Elt F)),
    unary main_v11 main_v12 (Host.floor : (⟨S16777216, .f32⟩ : BufTy).Contents (Elt F) → (⟨S16777216, .f32⟩ : BufTy).Contents (Elt F)),
    unary main_v12 main_v13 (fptosi 32 : (⟨S16777216, .f32⟩ : BufTy).Contents (Elt F) → (⟨S16777216, .i32⟩ : BufTy).Contents (Elt F)),
    nullary main_c (constantI S_ 32 0#32),
    nullary main_c_2 (constantI S_ 32 9#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16777216, .i32⟩) main_call0_v1) (broadcastInDim S16777216 ![] bcast_S_S16777216),
    TRef.binary (TRef.of (T := ⟨S16777216, .i32⟩) main_call0_v1) (TRef.of (T := ⟨S16777216, .i32⟩) main_v13) (TRef.of (T := ⟨S16777216, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S16777216, .i32⟩) main_call0_v4) (broadcastInDim S16777216 ![] bcast_S_S16777216),
    TRef.binary (TRef.of (T := ⟨S16777216, .i32⟩) main_call0_v4) (TRef.of (T := ⟨S16777216, .i32⟩) main_call0_v2) (TRef.of (T := ⟨S16777216, .i32⟩) main_v14) minsi,
    nullary main_cst_3 (constant S_ .f32 0x00000000#32),
    unary main_cst_3 main_v15 (broadcastInDim S10 ![] bcast_S_S10 : (⟨S_, .f32⟩ : BufTy).Contents (Elt F) → (⟨S10, .f32⟩ : BufTy).Contents (Elt F)),
    nullary main_c_4 (constantI S_ 32 0#32),
    unary main_c_4 main_v16 (broadcastInDim S16777216 ![] bcast_S_S16777216 : (⟨S_, .i32⟩ : BufTy).Contents (Elt F) → (⟨S16777216, .i32⟩ : BufTy).Contents (Elt F)),
    binary main_v14 main_v16 main_v17 (cmpi .slt : (⟨S16777216, .i32⟩ : BufTy).Contents (Elt F) → (⟨S16777216, .i32⟩ : BufTy).Contents (Elt F) → (⟨S16777216, .i1⟩ : BufTy).Contents (Elt F)),
    nullary main_c_5 (constantI S_ 32 10#32),
    unary main_c_5 main_v18 (broadcastInDim S16777216 ![] bcast_S_S16777216 : (⟨S_, .i32⟩ : BufTy).Contents (Elt F) → (⟨S16777216, .i32⟩ : BufTy).Contents (Elt F)),
    binary main_v14 main_v18 main_v19 (addi : (⟨S16777216, .i32⟩ : BufTy).Contents (Elt F) → (⟨S16777216, .i32⟩ : BufTy).Contents (Elt F) → (⟨S16777216, .i32⟩ : BufTy).Contents (Elt F)),
    ternary main_v17 main_v19 main_v14 main_v20 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v20 main_v21 (broadcastInDim S16777216x1 ![0] bcast_S16777216_S16777216x1_0 : (⟨S16777216, .i32⟩ : BufTy).Contents (Elt F) → (⟨S16777216x1, .i32⟩ : BufTy).Contents (Elt F)),
    nullary main_cst_6 (constant S_ .f32 0x3F800000#32),
    unary main_cst_6 main_v22 (broadcastInDim S16777216 ![] bcast_S_S16777216 : (⟨S_, .f32⟩ : BufTy).Contents (Elt F) → (⟨S16777216, .f32⟩ : BufTy).Contents (Elt F)),
    ternary main_v15 main_v21 main_v22 main_v23 ((fun x i u => Host.scatterAdd scatter_S10_S16777216x1_S16777216_n_0_0_1 x i u) : (⟨S10, .f32⟩ : BufTy).Contents (Elt F) → (⟨S16777216x1, .i32⟩ : BufTy).Contents (Elt F) → (⟨S16777216, .f32⟩ : BufTy).Contents (Elt F) → (⟨S10, .f32⟩ : BufTy).Contents (Elt F)),
    nullary main_cst_7 (constant S_ .f32 0x00000000#32),
    unary main_cst_7 main_v24 (broadcastInDim S10 ![] bcast_S_S10 : (⟨S_, .f32⟩ : BufTy).Contents (Elt F) → (⟨S10, .f32⟩ : BufTy).Contents (Elt F)),
    binary main_v23 main_v24 main_v25 (cmpf .ogt : (⟨S10, .f32⟩ : BufTy).Contents (Elt F) → (⟨S10, .f32⟩ : BufTy).Contents (Elt F) → (⟨S10, .i1⟩ : BufTy).Contents (Elt F)),
    unary main_v25 main_v26 ((extui 32 · natLt_1_32) : (⟨S10, .i1⟩ : BufTy).Contents (Elt F) → (⟨S10, .i32⟩ : BufTy).Contents (Elt F)),
    nullary main_c_8 (constantI S_ 32 0#32),
    binary main_v26 main_c_8 main_v27 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v27 main_v28 (sitofp .f32 : (⟨S_, .i32⟩ : BufTy).Contents (Elt F) → (⟨S_, .f32⟩ : BufTy).Contents (Elt F)),
    unary main_v28 main_v29 (broadcastInDim S10 ![] bcast_S_S10 : (⟨S_, .f32⟩ : BufTy).Contents (Elt F) → (⟨S10, .f32⟩ : BufTy).Contents (Elt F)),
    binary main_v23 main_v29 main_v30 (mulf : (⟨S10, .f32⟩ : BufTy).Contents (Elt F) → (⟨S10, .f32⟩ : BufTy).Contents (Elt F) → (⟨S10, .f32⟩ : BufTy).Contents (Elt F)),
    nullary main_cst_9 (constant S_ .f32 0x358637BD#32),
    unary main_cst_9 main_v31 (broadcastInDim S10 ![] bcast_S_S10 : (⟨S_, .f32⟩ : BufTy).Contents (Elt F) → (⟨S10, .f32⟩ : BufTy).Contents (Elt F)),
    binary main_v30 main_v31 main_v32 (maximumf : (⟨S10, .f32⟩ : BufTy).Contents (Elt F) → (⟨S10, .f32⟩ : BufTy).Contents (Elt F) → (⟨S10, .f32⟩ : BufTy).Contents (Elt F)),
    nullary main_cst_10 (constant S_ .f32 0x4B800000#32),
    unary main_cst_10 main_v33 (broadcastInDim S10 ![] bcast_S_S10 : (⟨S_, .f32⟩ : BufTy).Contents (Elt F) → (⟨S10, .f32⟩ : BufTy).Contents (Elt F)),
    binary main_v33 main_v32 main_v34 (Host.divf : (⟨S10, .f32⟩ : BufTy).Contents (Elt F) → (⟨S10, .f32⟩ : BufTy).Contents (Elt F) → (⟨S10, .f32⟩ : BufTy).Contents (Elt F)),
    nullary main_c_11 (constantI S_ 32 0#32),
    unary main_c_11 main_v35 (broadcastInDim S16777216 ![] bcast_S_S16777216 : (⟨S_, .i32⟩ : BufTy).Contents (Elt F) → (⟨S16777216, .i32⟩ : BufTy).Contents (Elt F)),
    binary main_v14 main_v35 main_v36 (cmpi .slt : (⟨S16777216, .i32⟩ : BufTy).Contents (Elt F) → (⟨S16777216, .i32⟩ : BufTy).Contents (Elt F) → (⟨S16777216, .i1⟩ : BufTy).Contents (Elt F)),
    nullary main_c_12 (constantI S_ 32 10#32),
    unary main_c_12 main_v37 (broadcastInDim S16777216 ![] bcast_S_S16777216 : (⟨S_, .i32⟩ : BufTy).Contents (Elt F) → (⟨S16777216, .i32⟩ : BufTy).Contents (Elt F)),
    binary main_v14 main_v37 main_v38 (addi : (⟨S16777216, .i32⟩ : BufTy).Contents (Elt F) → (⟨S16777216, .i32⟩ : BufTy).Contents (Elt F) → (⟨S16777216, .i32⟩ : BufTy).Contents (Elt F)),
    ternary main_v36 main_v38 main_v14 main_v39 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v39 main_v40 (broadcastInDim S16777216x1 ![0] bcast_S16777216_S16777216x1_0 : (⟨S16777216, .i32⟩ : BufTy).Contents (Elt F) → (⟨S16777216x1, .i32⟩ : BufTy).Contents (Elt F)),
    binary main_v34 main_v40 main_v41 ((fun x i => Host.gather gather_S10_S16777216x1_S16777216_n_0_n_n_0_1_1 x i) : (⟨S10, .f32⟩ : BufTy).Contents (Elt F) → (⟨S16777216x1, .i32⟩ : BufTy).Contents (Elt F) → (⟨S16777216, .f32⟩ : BufTy).Contents (Elt F)),
    nullary main_cst_13 (constant S_ .f32 0x00000000#32),
    unary main_cst_13 main_v42 (broadcastInDim S16777216 ![] bcast_S_S16777216 : (⟨S_, .f32⟩ : BufTy).Contents (Elt F) → (⟨S16777216, .f32⟩ : BufTy).Contents (Elt F)),
    binary main_v42 main_v0 main_v43 (maximumf : (⟨S16777216, .f32⟩ : BufTy).Contents (Elt F) → (⟨S16777216, .f32⟩ : BufTy).Contents (Elt F) → (⟨S16777216, .f32⟩ : BufTy).Contents (Elt F)),
    binary main_v42 main_v0 main_v44 (subf : (⟨S16777216, .f32⟩ : BufTy).Contents (Elt F) → (⟨S16777216, .f32⟩ : BufTy).Contents (Elt F) → (⟨S16777216, .f32⟩ : BufTy).Contents (Elt F)),
    binary main_v44 main_v44 main_v45 (cmpf .une : (⟨S16777216, .f32⟩ : BufTy).Contents (Elt F) → (⟨S16777216, .f32⟩ : BufTy).Contents (Elt F) → (⟨S16777216, .i1⟩ : BufTy).Contents (Elt F)),
    binary main_v42 main_v0 main_v46 (addf : (⟨S16777216, .f32⟩ : BufTy).Contents (Elt F) → (⟨S16777216, .f32⟩ : BufTy).Contents (Elt F) → (⟨S16777216, .f32⟩ : BufTy).Contents (Elt F)),
    unary main_v44 main_v47 (Host.absf : (⟨S16777216, .f32⟩ : BufTy).Contents (Elt F) → (⟨S16777216, .f32⟩ : BufTy).Contents (Elt F)),
    unary main_v47 main_v48 (Host.negf : (⟨S16777216, .f32⟩ : BufTy).Contents (Elt F) → (⟨S16777216, .f32⟩ : BufTy).Contents (Elt F)),
    unary main_v48 main_v49 (Host.exp : (⟨S16777216, .f32⟩ : BufTy).Contents (Elt F) → (⟨S16777216, .f32⟩ : BufTy).Contents (Elt F)),
    unary main_v49 main_v50 (Host.log1p : (⟨S16777216, .f32⟩ : BufTy).Contents (Elt F) → (⟨S16777216, .f32⟩ : BufTy).Contents (Elt F)),
    binary main_v43 main_v50 main_v51 (addf : (⟨S16777216, .f32⟩ : BufTy).Contents (Elt F) → (⟨S16777216, .f32⟩ : BufTy).Contents (Elt F) → (⟨S16777216, .f32⟩ : BufTy).Contents (Elt F)),
    ternary main_v45 main_v46 main_v51 main_v52 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)),
    binary main_v0 main_v1 main_v53 (mulf : (⟨S16777216, .f32⟩ : BufTy).Contents (Elt F) → (⟨S16777216, .f32⟩ : BufTy).Contents (Elt F) → (⟨S16777216, .f32⟩ : BufTy).Contents (Elt F)),
    binary main_v52 main_v53 main_v54 (subf : (⟨S16777216, .f32⟩ : BufTy).Contents (Elt F) → (⟨S16777216, .f32⟩ : BufTy).Contents (Elt F) → (⟨S16777216, .f32⟩ : BufTy).Contents (Elt F)),
    binary main_v54 main_v41 main_v55 (mulf : (⟨S16777216, .f32⟩ : BufTy).Contents (Elt F) → (⟨S16777216, .f32⟩ : BufTy).Contents (Elt F) → (⟨S16777216, .f32⟩ : BufTy).Contents (Elt F)),
    nullary main_cst_14 (constant S_ .f32 0x00000000#32),
    binary main_v55 main_cst_14 main_v56 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_15 (constant S_ .f32 0x4B800000#32),
    binary main_v56 main_cst_15 main_v57 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., binary_bufs_sub .., binary_bufs_sub .., unary_bufs_sub .., unary_bufs_sub .., unary_bufs_sub .., unary_bufs_sub .., binary_bufs_sub .., ternary_bufs_sub .., binary_bufs_sub .., binary_bufs_sub .., binary_bufs_sub .., nullary_bufs_sub .., binary_bufs_sub .., nullary_bufs_sub .., binary_bufs_sub ..⟩

/-! ## The result, stage by stage -/

/-- The float word w at every sample. -/
def kN (w : BitVec 32) : FVec F S16777216 .f32 :=
  broadcastInDim S16777216 ![] bcast_S_S16777216 (constant (F := F) S_ .f32 w)

/-- The float word w at every bin. -/
def kB (w : BitVec 32) : FVec F S10 .f32 :=
  broadcastInDim S10 ![] bcast_S_S10 (constant (F := F) S_ .f32 w)

/-- The integer word w at every sample. -/
def kI (w : BitVec 32) : IVec S16777216 32 :=
  broadcastInDim S16777216 ![] bcast_S_S16777216 (constantI S_ 32 w)

section Stages

variable (x0 : FVec F S16777216x1 .f32) (x1 : IVec S16777216 32)

/-- The logits as a vector: the [N,1] argument read as [N]. -/
def rX : FVec F S16777216 .f32 := shapeCast S16777216 x0 shapeCasts_S16777216x1_S16777216

/-- The labels as floats. -/
def rT : FVec F S16777216 .f32 := sitofp (F := F) .f32 x1

/-- The gradient norm |1 / (1 + e^{-x}) - t|. -/
def rG : FVec F S16777216 .f32 :=
  Host.absf (subf (Host.divf (kN (F := F) 0x3F800000#32) (addf (kN (F := F) 0x3F800000#32) (Host.exp (Host.negf (rX x0))))) (rT (F := F) x1))

/-- The bin words: floor(g · 9.9999) as a signed word, clipped into 0..9. -/
def rBin : IVec S16777216 32 :=
  minsi (broadcastInDim S16777216 ![] bcast_S_S16777216 (id (constantI S_ 32 9#32)))
    (maxsi (broadcastInDim S16777216 ![] bcast_S_S16777216 (id (constantI S_ 32 0#32)))
      (fptosi 32 (Host.floor (mulf (rG x0 x1) (kN (F := F) 0x411FFF97#32)))))

/-- The [N,1] index column: the bin words, a negative one wrapped by ten. -/
def rIdx : IVec S16777216x1 32 :=
  broadcastInDim S16777216x1 ![0] bcast_S16777216_S16777216x1_0
    (select (cmpi .slt (rBin x0 x1) (kI 0#32)) (addi (rBin x0 x1) (kI 10#32)) (rBin x0 x1))

/-- The histogram: ones scatter-added into ten zeros at the index column. -/
def rCnt : FVec F S10 .f32 :=
  Host.scatterAdd scatter_S10_S16777216x1_S16777216_n_0_0_1 (kB (F := F) 0x00000000#32) (rIdx x0 x1) (kN (F := F) 0x3F800000#32)

/-- The number of nonempty bins, as a float. -/
def rNe : FVec F S_ .f32 :=
  sitofp (F := F) .f32 (Host.reduce IntOp.addi (extui 32 (cmpf .ogt (rCnt (F := F) x0 x1) (kB (F := F) 0x00000000#32)) natLt_1_32)
    (constantI S_ 32 0#32) reducesTo_S10_S_d0 h_S_)

/-- The weight of each bin: N / max(count · nonempty, ε). -/
def rBeta : FVec F S10 .f32 :=
  Host.divf (kB (F := F) 0x4B800000#32)
    (maximumf (mulf (rCnt (F := F) x0 x1) (broadcastInDim S10 ![] bcast_S_S10 (rNe (F := F) x0 x1))) (kB (F := F) 0x358637BD#32))

/-- The weight of each sample: the bin weights gathered at the index column. -/
def rW : FVec F S16777216 .f32 :=
  Host.gather gather_S10_S16777216x1_S16777216_n_0_n_n_0_1_1 (rBeta (F := F) x0 x1) (rIdx x0 x1)

/-- The cross-entropy of each sample, logaddexp(0, x) - x t in its stable form. -/
def rCe : FVec F S16777216 .f32 :=
  subf
    (select (cmpf .une (subf (kN (F := F) 0x00000000#32) (rX x0)) (subf (kN (F := F) 0x00000000#32) (rX x0)))
      (addf (kN (F := F) 0x00000000#32) (rX x0))
      (addf (maximumf (kN (F := F) 0x00000000#32) (rX x0))
        (Host.log1p (Host.exp (Host.negf (Host.absf (subf (kN (F := F) 0x00000000#32) (rX x0))))))))
    (mulf (rX x0) (rT (F := F) x1))

/-- The loss: the sum over the samples of cross-entropy times weight, divided by N. -/
def rLoss : FVec F S_ .f32 :=
  Host.divf
    (Host.reduceAdd (mulf (rCe (F := F) x0 x1) (rW (F := F) x0 x1)) (constant (F := F) S_ .f32 0x00000000#32) reducesTo_S16777216_S_d0 h_S_)
    (constant (F := F) S_ .f32 0x4B800000#32)

end Stages

set_option maxRecDepth 8192 in
set_option maxHeartbeats 32400000 in
/-- On every device, for any float values, from any memory with zero counters: every weakly fair execution of
    @main terminates with the result buffer at the loss of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = rLoss (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Ghm.Ref

end
-- ==== Proof.LibVecIndex.lean ====
/-
  A gather and a scatter-add of a flat array, read at an index.

  A vector x : [N] gathered at a column of positions idx : [E, 1] gives the vector whose entry e is the entry
  of x numbered idx[e, 0] (read signed and clamped into [0, N - 1]).  Scatter-adding the entries of
  upd : [E] into x at those positions adds to every entry n of x the entries of upd whose position, read
  signed and not clamped, is n; a position outside [0, N) contributes nothing.
-/
import Idealize.ShloMosaic.PureOps.Ideal
import Idealize.ShloMosaic.Lib.ValueIdx

noncomputable section

open scoped BigOperators

namespace Cert.GNN.VecIndex

open Idealize.ShloMosaic Idealize.ShloMosaic.ValueIdx

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-! ## The gather -/

section Gather
variable {α : Type}

/-- The dimension numbers of a flat gather: operand [N], start indices [E, 1] (the index vector on axis 1, of
    length one, naming operand axis 0), result [E], no offset axis, slices [1] with operand axis 0 collapsed. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N - 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The scatter-add -/

section Scatter

/-- The dimension numbers of a flat scatter: operand [N], scatter indices [E, 1] (the index vector on axis 1, of
    length one, naming operand axis 0), updates [E], no window axis, operand axis 0 inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update j starts at the position idx[j 0, 0], read signed. -/
theorem start_pos (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only axis is inserted: no window coordinate. -/
theorem window_pos (j : (⟨1, ![E]⟩ : Shape).Idx) : (vecScatterDims N E wf).window j 0 = 0 := by
  unfold ScatterDims.window
  rw [dif_neg (show ¬ (0 : Fin 1) ∈ (vecScatterDims N E wf).sKept from
    (by decide : (0 : Fin 1) ∉ (List.finRange 1).filter (fun a => a ∉ [(0 : Fin 1)])))]

/-- Update j lands at n exactly when its position, read signed, is n. -/
theorem resultIdx?_vec_eq_some_iff (idx : IVec ⟨2, ![E, 1]⟩ w) (j : (⟨1, ![E]⟩ : Shape).Idx) (n : Fin N) :
    (vecScatterDims N E wf).resultIdx? j idx = some (ix1 n) ↔
      (idx (ix2 (j 0) (0 : Fin 1))).toInt = (n.val : Int) := by
  unfold ScatterDims.resultIdx?
  constructor
  · intro h
    split at h
    · rename_i hh
      have h' := Option.some.inj h
      have h0 : ((vecScatterDims N E wf).start j idx 0 + ((vecScatterDims N E wf).window j 0 : Int)).toNat = n.val :=
        congrArg (fun f => (f 0).val) h'
      have hh0 := (hh 0).1
      rw [start_pos, window_pos] at h0 hh0
      omega
    · exact absurd h (by simp)
  · intro h0
    have hn := n.isLt
    rw [dif_pos]
    · congr 1
      funext a
      obtain rfl : a = 0 := Subsingleton.elim _ _
      refine Fin.ext ?_
      show ((vecScatterDims N E wf).start j idx 0 + ((vecScatterDims N E wf).window j 0 : Int)).toNat = n.val
      rw [start_pos, window_pos, h0]; omega
    · intro a
      obtain rfl : a = 0 := Subsingleton.elim _ _
      show 0 ≤ (vecScatterDims N E wf).start j idx 0 + ((vecScatterDims N E wf).window j 0 : Int) ∧
        (vecScatterDims N E wf).start j idx 0 + ((vecScatterDims N E wf).window j 0 : Int) < (N : Int)
      rw [start_pos, window_pos, h0]; omega

/-- THE FLAT SCATTER-ADD READ AT n: the operand's entry plus the update entries whose position, read signed, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl (fun e _ => ?_)
  refine if_congr ?_ rfl rfl
  rw [resultIdx?_vec_eq_some_iff]
  exact Iff.rfl

/-- The same for Host.scatterAdd at the exact instance, which is that sum by definition. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : Int)),
          upd (ix1 e) :=
  scatterAdd_vec_apply wf x idx upd n

end Scatter

end Cert.GNN.VecIndex

end
-- ==== Proof.RefRead.lean ====
/-
  The reference's loss is the specification's loss, sample by sample.

  Each stage of the reference's result is read at an index: the logits and the labels are the arguments'
  entries, the gradient norm and the bin word of a sample are the specification's, the index column holds the
  bin words (none is negative, so the wrap by ten does nothing), the histogram's entry b is the number of
  samples whose bin word is b, the count of nonempty bins is the number of positive entries, the weight of
  bin b is N / max(n_b m, ε), the gathered weight of sample a is the weight of its bin, and the sum over the
  samples of cross-entropy times weight, divided by N, is the loss.
-/
import proofs.«181964_j90546500534448_2_alg».proof.Proof.RefRun
import proofs.«181964_j90546500534448_2_alg».proof.Proof.SpecFacts
import proofs.«181964_j90546500534448_2_alg».proof.Proof.LibVecIndex
import Idealize.ShloMosaic.Lib.Pipeline.Value
import Idealize.ShloMosaic.PureOps.Ideal.Laws
import Idealize.ShloMosaic.Lib.IndicatorCount

noncomputable section

open scoped BigOperators

namespace Cert.Ghm.Ref

open Cert.ReferenceIdeal Cert.ReferenceIdeal.Gen Idealize.ShloMosaic Idealize.ShloMosaic.ValueIdx Cert.GNN.VecIndex

/-! ## Constant vectors -/

/-- A scalar broadcast over the samples holds the scalar at every sample. -/
theorem bcastN_apply {α : Type} (y : S_.Idx → α) (i : S16777216.Idx) :
    broadcastInDim S16777216 ![] bcast_S_S16777216 y i = y ix0 :=
  broadcastInDim_apply _ bcast_S_S16777216 y i ix0 (fun a => a.elim0)

/-- A scalar broadcast over the bins holds the scalar at every bin. -/
theorem bcastB_apply {α : Type} (y : S_.Idx → α) (i : S10.Idx) :
    broadcastInDim S10 ![] bcast_S_S10 y i = y ix0 :=
  broadcastInDim_apply _ bcast_S_S10 y i ix0 (fun a => a.elim0)

theorem kN_apply (w : BitVec 32) (i : S16777216.Idx) : kN (F := Ideal) w i = Ideal.ofBits .f32 w := by
  unfold kN; exact bcastN_apply _ i

theorem kB_apply (w : BitVec 32) (i : S10.Idx) : kB (F := Ideal) w i = Ideal.ofBits .f32 w := by
  unfold kB; exact bcastB_apply _ i

theorem kI_apply (w : BitVec 32) (i : S16777216.Idx) : kI w i = w := by
  unfold kI; exact bcastN_apply _ i

/-! ## Small facts -/

/-- A bin number below ten, as a 32-bit word, reads signed as itself. -/
theorem toInt_ofNat_fin10 (b : Fin 10) : (BitVec.ofNat 32 b.val).toInt = (b.val : ℤ) := by
  have hb := b.isLt
  have hn : (BitVec.ofNat 32 b.val).toNat = b.val := by
    rw [BitVec.toNat_ofNat]; omega
  rw [BitVec.toInt_eq_toNat_of_lt (by rw [hn]; omega), hn]

/-- A word reads signed as the bin number b exactly when it is b's word. -/
theorem toInt_eq_fin10_iff (k : BitVec 32) (b : Fin 10) : k.toInt = (b.val : ℤ) ↔ k = BitVec.ofNat 32 b.val := by
  constructor
  · intro e; apply BitVec.eq_of_toInt_eq; rw [toInt_ofNat_fin10]; exact e
  · intro e; rw [e, toInt_ofNat_fin10]

/-- A sum of zeros and ones over a finite set is the number of ones. -/
theorem sum_ite_eq_card {ι : Type} (s : Finset ι) (p : ι → Prop) [DecidablePred p] :
    ∑ a ∈ s, (if p a then (1 : EReal) else 0) = (((s.filter p).card : ℝ) : EReal) := by
  classical
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1),
        Nat.cast_add, Nat.cast_one, EReal.coe_add, EReal.coe_one, add_comm]
    · rw [if_neg h, if_neg h, zero_add]

/-- The cross-entropy of a sample in the reference's spelling: the zero word is zero, and zero minus a
    number is its negative. -/
theorem ceOf_eq (x : EReal) (t : BitVec 32) :
    ceOf x t = (Scalar.select (Ideal.cmp .une (0 - x) (0 - x)) (0 + x)
      (max 0 x + Ideal.log1p (Ideal.exp (-(max (0 - x) (-(0 - x))))))) - x * lab t := by
  unfold ceOf
  rw [zeroW_eq, zero_sub (max (0 - x) (-(0 - x)))]
  rfl

/-- A vector comparison "greater than" read at an index. -/
theorem cmpf_ogt_apply {s : Shape} (X Y : FVec Ideal s .f32) (i : s.Idx) :
    cmpf .ogt X Y i = Ideal.cmp .ogt (X i) (Y i) := rfl

/-- The comparison "greater than" answers one exactly when its second operand is below its first. -/
theorem cmp_ogt_eq_one_iff (a b : EReal) : Ideal.cmp .ogt a b = 1#1 ↔ b < a := by
  unfold Ideal.cmp
  by_cases h : b < a <;> simp [h]

section Read

variable (x0 : S16777216x1.Idx → EReal) (x1 : S16777216.Idx → BitVec 32)

/-! ## The stages at an index -/

theorem rX_apply (a : Fin 16777216) : rX (F := Ideal) x0 (ix1 a) = x0 (ix2 a (0 : Fin 1)) := by
  unfold rX
  exact shapeCast_apply x0 shapeCasts_S16777216x1_S16777216 (ix1 a) (ix2 a (0 : Fin 1))
    (by rewrite [Shape.rowMajor_val_two, Shape.rowMajor_val_one]; show a.val * 1 + 0 = a.val; omega)

theorem rT_apply (i : S16777216.Idx) : rT (F := Ideal) x1 i = lab (x1 i) := rfl

theorem rG_apply (a : Fin 16777216) :
    rG (F := Ideal) x0 x1 (ix1 a) = gnorm (x0 (ix2 a (0 : Fin 1))) (x1 (ix1 a)) := by
  unfold rG
  simp only [Host.absf, subf, Host.divf, addf, Host.exp, Host.negf, kN_apply, rX_apply, rT_apply]
  rw [show Ideal.ofBits .f32 0x3F800000#32 = 1 from oneW_eq]
  rfl

theorem rBin_apply (a : Fin 16777216) :
    rBin (F := Ideal) x0 x1 (ix1 a) = binOf (x0 (ix2 a (0 : Fin 1))) (x1 (ix1 a)) := by
  unfold rBin
  simp only [minsi, maxsi, fptosi, Host.floor, mulf, bcastN_apply, kN_apply, rG_apply]
  rfl

theorem rIdx_apply (a : Fin 16777216) :
    rIdx (F := Ideal) x0 x1 (ix2 a (0 : Fin 1)) = binOf (x0 (ix2 a (0 : Fin 1))) (x1 (ix1 a)) := by
  unfold rIdx
  refine (broadcastInDim_apply _ bcast_S16777216_S16777216x1_0 _ (ix2 a (0 : Fin 1)) (ix1 a) (fun d => match d with
    | ⟨0, _⟩ => by show a.val = if (16777216 : Nat) = 1 then 0 else a.val; rw [if_neg (by decide)])).trans ?_
  simp only [select, cmpi, addi, rBin_apply, kI_apply]
  rw [not_slt_zero]
  rfl

/-- The logit and the label word of sample a. -/
abbrev xsOf : Fin NS → EReal := fun a => x0 (ix2 a (0 : Fin 1))
abbrev tsOf : Fin NS → BitVec 32 := fun a => x1 (ix1 a)

-- the stages and the specification's sums over all the samples are opened by name only, never by computation
attribute [local irreducible] rIdx rCnt rNe rBeta rW rCe cnt nonempty beta

/-- The histogram at bin b is the number of samples whose bin word is b. -/
theorem rCnt_apply (b : Fin 10) : rCnt (F := Ideal) x0 x1 (ix1 b) = cnt (xsOf x0) (tsOf x1) b := by
  unfold rCnt
  refine (host_scatterAdd_vec_apply scatter_S10_S16777216x1_S16777216_n_0_0_1_wf (kB (F := Ideal) 0x00000000#32)
    (rIdx (F := Ideal) x0 x1) (kN (F := Ideal) 0x3F800000#32) b).trans ?_
  simp only [kB_apply, kN_apply, rIdx_apply]
  rw [Finset.sum_filter, Ideal.ofBits_zero_f32, zero_add]
  unfold cnt
  refine Finset.sum_congr rfl (fun e _ => ?_)
  rw [ind_eq, show Ideal.ofBits .f32 0x3F800000#32 = 1 from oneW_eq]
  exact if_congr (toInt_eq_fin10_iff _ b) rfl rfl

/-- The count of nonempty bins is the number of bins with a positive count. -/
theorem rNe_apply (i : S_.Idx) : rNe (F := Ideal) x0 x1 i = nonempty (xsOf x0) (tsOf x1) := by
  unfold rNe
  generalize hpdef : cmpf .ogt (rCnt (F := Ideal) x0 x1) (kB (F := Ideal) 0x00000000#32) = p
  have hp : ∀ b : Fin 10, p (ix1 b) = 1#1 ↔ 0 < cnt (xsOf x0) (tsOf x1) b := by
    intro b
    rw [← hpdef, cmpf_ogt_apply, cmp_ogt_eq_one_iff, rCnt_apply, kB_apply, Ideal.ofBits_zero_f32]
  have hcard : (Finset.univ.filter fun j : S10.Idx => p j = 1#1).card
      = (Finset.univ.filter fun b : Fin 10 => 0 < cnt (xsOf x0) (tsOf x1) b).card := by
    have h1 : ((((Finset.univ.filter fun j : S10.Idx => p j = 1#1).card : ℝ)) : EReal)
        = (((Finset.univ.filter fun b : Fin 10 => 0 < cnt (xsOf x0) (tsOf x1) b).card : ℝ) : EReal) := by
      rw [← sum_ite_eq_card, ← sum_ite_eq_card, sum_idx1]
      exact Finset.sum_congr rfl (fun b _ => if_congr (hp b) rfl rfl)
    exact_mod_cast h1
  have hfold : Host.reduce IntOp.addi (extui 32 p natLt_1_32) (constantI S_ 32 0#32) reducesTo_S10_S_d0 h_S_ i
      = BitVec.ofNat 32 (Finset.univ.filter fun b : Fin 10 => 0 < cnt (xsOf x0) (tsOf x1) b).card := by
    rw [Host.reduce_eq_fold, Finset.filter_true_of_mem (fun j _ => funext fun b => b.elim0), ← hcard]
    exact IndicatorCount.fold_addi_setWidth_eq_card (w := 32) p Finset.univ
  show (((Host.reduce IntOp.addi (extui 32 p natLt_1_32) (constantI S_ 32 0#32) reducesTo_S10_S_d0 h_S_ i).toInt : ℝ) : EReal) = _
  rw [hfold]
  unfold nonempty
  rw [sum_ite_eq_card]
  have hc : (Finset.univ.filter fun k : Fin 10 => 0 < cnt (xsOf x0) (tsOf x1) k).card ≤ 10 :=
    (Finset.card_filter_le _ _).trans (by simp)
  generalize (Finset.univ.filter fun k : Fin 10 => 0 < cnt (xsOf x0) (tsOf x1) k).card = n at hc
  have hn : (BitVec.ofNat 32 n).toNat = n := by rw [BitVec.toNat_ofNat]; omega
  rw [BitVec.toInt_eq_toNat_of_lt (by rw [hn]; omega), hn]
  norm_cast

/-- The weight stage over any count vector cv and any scalar nv. -/
theorem beta_stage (cv : FVec Ideal S10 .f32) (nv : FVec Ideal S_ .f32) (b : Fin 10) :
    Host.divf (F := Ideal) (kB (F := Ideal) 0x4B800000#32)
      (maximumf (mulf cv (broadcastInDim S10 ![] bcast_S_S10 nv)) (kB (F := Ideal) 0x358637BD#32)) (ix1 b)
      = Ideal.div nW (max (cv (ix1 b) * nv ix0) epsW) := by
  show Ideal.div (kB (F := Ideal) 0x4B800000#32 (ix1 b))
    (max (cv (ix1 b) * broadcastInDim S10 ![] bcast_S_S10 nv (ix1 b)) (kB (F := Ideal) 0x358637BD#32 (ix1 b))) = _
  rw [kB_apply, kB_apply, bcastB_apply]
  rfl

/-- The weight of bin b. -/
theorem rBeta_apply (b : Fin 10) : rBeta (F := Ideal) x0 x1 (ix1 b) = beta (xsOf x0) (tsOf x1) b := by
  unfold rBeta
  rw [beta_stage, rCnt_apply, rNe_apply]
  unfold beta
  rfl

/-- The gathered weight of sample a is the weight of its bin. -/
theorem rW_apply (a : Fin 16777216) :
    rW (F := Ideal) x0 x1 (ix1 a) = beta (xsOf x0) (tsOf x1) (binPos (xsOf x0) (tsOf x1) a) := by
  unfold rW
  refine (gather_vec_apply (N := 10) (by decide) gather_S10_S16777216x1_S16777216_n_0_n_n_0_1_1_wf
    (rBeta (F := Ideal) x0 x1) (rIdx (F := Ideal) x0 x1) a).trans ?_
  have hp : (⟨min (rIdx (F := Ideal) x0 x1 (ix2 a (0 : Fin 1))).toInt.toNat (10 - 1), by omega⟩ : Fin 10)
      = binPos (xsOf x0) (tsOf x1) a := by
    refine Fin.ext ?_
    show min (rIdx (F := Ideal) x0 x1 (ix2 a (0 : Fin 1))).toInt.toNat (10 - 1) = min (bin (xsOf x0) (tsOf x1) a).toInt.toNat 9
    rw [rIdx_apply]
    rfl
  rw [hp, rBeta_apply]

/-- The cross-entropy of sample a. -/
theorem rCe_apply (a : Fin 16777216) :
    rCe (F := Ideal) x0 x1 (ix1 a) = ceOf (x0 (ix2 a (0 : Fin 1))) (x1 (ix1 a)) := by
  unfold rCe
  simp only [subf, select, cmpf, addf, maximumf, Host.log1p, Host.exp, Host.negf, Host.absf, mulf, kN_apply,
    rX_apply, rT_apply]
  rw [Ideal.ofBits_zero_f32, ceOf_eq]
  rfl

/-! ## The loss -/

/-- The reference's result is the specification's loss, sample by sample. -/
theorem rLoss_eq :
    rLoss (F := Ideal) x0 x1
      = fun _ => lossBySample (fun a => x0 (ix2 a (0 : Fin 1))) (fun a => x1 (ix1 a)) := by
  funext i
  unfold rLoss
  have hsum : Host.reduceAdd (mulf (rCe (F := Ideal) x0 x1) (rW (F := Ideal) x0 x1))
      (constant (F := Ideal) S_ .f32 0x00000000#32) reducesTo_S16777216_S_d0 h_S_ i
      = ∑ a : Fin NS, ce (xsOf x0) (tsOf x1) a * beta (xsOf x0) (tsOf x1) (binPos (xsOf x0) (tsOf x1) a) := by
    generalize hy : mulf (rCe (F := Ideal) x0 x1) (rW (F := Ideal) x0 x1) = y
    simp only [Host.reduceAdd, Ideal.hostReduceAdd_def]
    rw [Ideal.hostReduceAdd_total reducesTo_S16777216_S_d0 (fun b => b.elim0) y _ i, sum_idx1]
    show Ideal.ofBits .f32 0x00000000#32 + _ = _
    rw [Ideal.ofBits_zero_f32, zero_add]
    refine Finset.sum_congr rfl (fun a _ => ?_)
    subst hy
    show rCe (F := Ideal) x0 x1 (ix1 a) * rW (F := Ideal) x0 x1 (ix1 a) = _
    rw [rCe_apply, rW_apply]
    rfl
  show Ideal.div (Host.reduceAdd (mulf (rCe (F := Ideal) x0 x1) (rW (F := Ideal) x0 x1))
      (constant (F := Ideal) S_ .f32 0x00000000#32) reducesTo_S16777216_S_d0 h_S_ i) (Ideal.ofBits .f32 0x4B800000#32) = _
  rw [hsum]
  rfl

end Read

end Cert.Ghm.Ref

end
-- ==== Proof.lean ====
/-
  The certificate: a gradient-harmonised binary cross-entropy over N = 16,777,216 samples in ten bins.

  Both programs compute, per sample a, the gradient norm g = |σ(x) - t|, its bin floor(9.9999 g) clipped into
  0..9, and the cross-entropy ce = max(0, x) + log1p(e^{-|x|}) - x t; with n_b the number of samples in bin b and
  k the number of nonempty bins, the weight of bin b is β_b = N / max(n_b k, 1e-6).

    * The reference gathers β at each sample's bin and takes the mean: (Σ_a ce_a β_{bin a}) / N.
    * The kernel tiles the samples 32 × 4096 × 128, half of the tiles per core, and in ONE pass accumulates, per
      core, bin and lane, the number of samples of the bin and the sum of their cross-entropies; the host then
      sums over cores and lanes and forms (Σ_b β_b Σ_{a in bin b} ce_a) / N.

  On the extended reals the two are equal for EVERY input: β_b is a nonnegative real whatever the logits are, so
  it moves across the sum over the samples of its bin, and the sums may be taken in any order.  The sigmoid of the
  kernel and the reference's 1 / (1 + e^{-x}) are one function there, as are the two spellings of -|x|.

  The three frames: the two kernel programs' are the generated frame theorems; the reference's is its run with
  the result dropped.  The idealization rewrote nothing, so the preservation claim is trivial.
-/
import proofs.«181964_j90546500534448_2_alg».proof.Defs
import proofs.«181964_j90546500534448_2_alg».proof.Proof.Gen.Kernel
import proofs.«181964_j90546500534448_2_alg».proof.Proof.Gen.Kernel.Skeleton
import proofs.«181964_j90546500534448_2_alg».proof.Proof.Gen.Kernel.Launch
import proofs.«181964_j90546500534448_2_alg».proof.Proof.Gen.Kernel.Points
import proofs.«181964_j90546500534448_2_alg».proof.Proof.Gen.Kernel.Frame
import proofs.«181964_j90546500534448_2_alg».proof.Proof.Gen.KernelIdeal
import proofs.«181964_j90546500534448_2_alg».proof.Proof.Gen.KernelIdeal.Skeleton
import proofs.«181964_j90546500534448_2_alg».proof.Proof.Gen.KernelIdeal.Launch
import proofs.«181964_j90546500534448_2_alg».proof.Proof.Gen.KernelIdeal.Points
import proofs.«181964_j90546500534448_2_alg».proof.Proof.Gen.KernelIdeal.Frame
import proofs.«181964_j90546500534448_2_alg».proof.Proof.Gen.ReferenceIdeal
import proofs.«181964_j90546500534448_2_alg».proof.Proof.Gen.Pre_finite_inputs
import proofs.«181964_j90546500534448_2_alg».proof.Proof.KValue
import proofs.«181964_j90546500534448_2_alg».proof.Proof.RefRead
import proofs.«181964_j90546500534448_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged. -/
theorem frame_ri : Cert.frame_ReferenceIdeal := fun m ρ _ =>
  (θ_run Cert.ReferenceIdeal.defs _ _).mono (fun _ h c => (h c).2) (Cert.Ghm.Ref.run (F := Ideal) m ρ)

theorem preserves : Cert.preserves_Kernel_KernelIdeal := trivial

/-- The kernel ends at the loss taken bin by bin, the reference at the loss taken sample by sample, of the same
    samples: one extended real. -/
theorem algebraic : Cert.algebraic_KernelIdeal_ReferenceIdeal := by
  intro m ρ m' ρ' _ hagree
  refine ⟨fun c => (fun _ => Cert.Ghm.lossByBin (Cert.Ghm.K.xsOf m c) (Cert.Ghm.K.tsOf m c)),
    Cert.Ghm.K.kernel_value m ρ, ?_⟩
  refine (θ_run Cert.ReferenceIdeal.defs _ _).mono (fun _ h c => ⟨(h c).1.trans ?_, (h c).2⟩)
    (Cert.Ghm.Ref.run (F := Ideal) m' ρ')
  rw [Cert.Ghm.Ref.rLoss_eq, (hagree c).1, (hagree c).2]
  exact funext fun _ => (Cert.Ghm.lossByBin_eq_lossBySample (Cert.Ghm.K.xsOf m c) (Cert.Ghm.K.tsOf m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
